-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S10000x64 : Shape := ⟨2, ![10000, 64]⟩
abbrev S1x64 : Shape := ⟨2, ![1, 64]⟩
abbrev S400x10000 : Shape := ⟨2, ![400, 10000]⟩
abbrev S400x128 : Shape := ⟨2, ![400, 128]⟩
abbrev S400x64 : Shape := ⟨2, ![400, 64]⟩
abbrev S400 : Shape := ⟨1, ![400]⟩
abbrev S400x1 : Shape := ⟨2, ![400, 1]⟩

abbrev nBuf : Space → Nat
  | .hbm => 12
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S10000x128, .f32⟩
  | .hbm, ⟨8, _⟩ => ⟨S10000x64, .f32⟩
  | .hbm, ⟨9, _⟩ => ⟨S1x64, .f32⟩
  | .hbm, ⟨10, _⟩ => ⟨S10000x64, .f32⟩
  | .hbm, ⟨11, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S400x128, .f32⟩
  | .local _ .vmem, ⟨7, _⟩ => ⟨S400x128, .f32⟩
  | .local _ .vmem, ⟨8, _⟩ => ⟨S400x64, .f32⟩
  | .local _ .vmem, ⟨9, _⟩ => ⟨S400x64, .f32⟩
  | .local _ .vmem, ⟨10, _⟩ => ⟨S10000x128, .f32⟩
  | .local _ .vmem, ⟨11, _⟩ => ⟨S400x10000, .f32⟩
  | .local _ .vmem, ⟨12, _⟩ => ⟨S400x10000, .f32⟩
  | .local _ .vmem, ⟨13, _⟩ => ⟨S10000x64, .f32⟩
  | .local _ .vmem, ⟨14, _⟩ => ⟨S1x64, .f32⟩
  | .local _ .vmem, ⟨15, _⟩ => ⟨S400x64, .f32⟩
  | .local _ .vmem, ⟨16, _⟩ => ⟨S400x64, .f32⟩
  | .local _ .vmem, ⟨17, _⟩ => ⟨S400x64, .f32⟩
  | .local _ .vmem, ⟨18, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0_1 : Ref sig .tc := ⟨.hbm, 7, rfl⟩
abbrev main_call0_v1_1 : Ref sig .tc := ⟨.hbm, 8, rfl⟩
abbrev main_call0_v2 : Ref sig .tc := ⟨.hbm, 9, rfl⟩
abbrev main_v0_0 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1_1) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1_1) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S400x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_2) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.PassOneBits.lean ====
/-
  The first pass of the two-layer graph convolution, as a pipeline region of 25 grid points. At the first point the body
  computes the product x·W1 of the whole feature matrix with the first weight matrix and keeps it in a scratch buffer;
  at every point it reads a 400-row block of the adjacency matrix and that scratch, and stores into its two output
  blocks h = max(adj_block · (x·W1) + b1, 0) and h · W2. The scratch is carried from point to point: after any point
  it holds x·W1 as the first point stored it. Stated at any float instance.
-/
import proofs.«179412_g78735340470967_cont_sun_c4_260_3_alg».proof.Proof.Gen.Kernel.Launch
import proofs.«179412_g78735340470967_cont_sun_c4_260_3_alg».proof.Proof.Gen.Kernel.Skeleton
import proofs.«179412_g78735340470967_cont_sun_c4_260_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassOne

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

abbrev rX : Rect S10000x128 := Rect.unit (s := S10000x128) ![0, 0] S10000x128.size inb_S10000x128_S10000x128_0_0
abbrev rAdj : Rect S400x10000 := Rect.unit (s := S400x10000) ![0, 0] S400x10000.size inb_S400x10000_S400x10000_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rH : Rect S400x128 := Rect.unit (s := S400x128) ![0, 0] S400x128.size inb_S400x128_S400x128_0_0
abbrev rPo : Rect S400x64 := Rect.unit (s := S400x64) ![0, 0] S400x64.size inb_S400x64_S400x64_0_0

/-- The scratch operand: a whole scoped buffer of the kernel's own. -/
abbrev scM : Memref sig .tc .vmem S10000x128 .f32 := Memref.whole cc0_scratch0

/-- What the first point leaves in the scratch: its one store, of x·W1. -/
def s1 (x0 : Vec F S10000x128 .f32) (x2 : Vec F S128x128 .f32) : Vec F S10000x128 .f32 :=
  View.canon [⟨rX, k0_pay1 (View.ld x0 rX) (View.ld x2 rW1)⟩]
/-- The h block after the body, from the adjacency block, the scratch's contents and the bias row. -/
def outH (x1 : Vec F S400x10000 .f32) (s : Vec F S10000x128 .f32) (x3 : Vec F S1x128 .f32) : Vec F S400x128 .f32 :=
  View.canon [⟨rH, k0_pay2 (View.ld x1 rAdj) (View.ld s rX) (View.ld x3 rB1)⟩]
/-- The h·W2 block after the body. -/
def outP (x1 : Vec F S400x10000 .f32) (s : Vec F S10000x128 .f32) (x3 : Vec F S1x128 .f32) (x4 : Vec F S128x64 .f32) : Vec F S400x64 .f32 :=
  View.canon [⟨rPo, k0_pay3 (View.ld x1 rAdj) (View.ld s rX) (View.ld x3 rB1) (View.ld x4 rW2)⟩]

theorem coverS (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y
theorem coverH (p0 : Vec F S400x128 .f32) (y : S400x128.Idx) :
    ∃ pc ∈ ([⟨rH, p0⟩] : List (View.Piece (Elt F) S400x128 .f32)), y ∈ pc.1.set :=
  View.cover_of_tiled [⟨rH, p0⟩] S400x128.size (by rfl) y
theorem coverP (p0 : Vec F S400x64 .f32) (y : S400x64.Idx) :
    ∃ pc ∈ ([⟨rPo, p0⟩] : List (View.Piece (Elt F) S400x64 .f32)), y ∈ pc.1.set :=
  View.cover_of_tiled [⟨rPo, p0⟩] S400x64.size (by rfl) y

/-! ## The body's one branch: taken at the first grid point only -/

/-- The condition of the body's `scf.if`, from the grid coordinate (the scalar chain the body computes). -/
abbrev atFirst (i : grid0.Coords) : Prop :=
  (Scalar.cmpi .ne (Scalar.extui (Scalar.cmpi .eq (BitVec.ofNat 32 (i 0).val) 0#32)) 0#32) = 1#1
/-- It holds at the first point and at no other — decided over the grid. -/
theorem atFirst_iff : ∀ t : Fin cfg0.N, atFirst (grid0.coords t) ↔ t.val % 25 = 0 :=
  (by decide +kernel : ∀ t : Fin grid0.N, atFirst (grid0.coords t) ↔ t.val % 25 = 0)

/-! ## The body's triple at a later point: the scratch comes in at known contents and goes out unchanged -/

set_option maxHeartbeats 4000000 in
theorem sound_later (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S400x128 .f32) (harg6 : arg6.IsWhole)
    (arg7 : Memref sig .tc .vmem S400x64 .f32) (harg7 : arg7.IsWhole) (arg8 : Memref sig .tc .vmem S10000x128 .f32) (harg8 : arg8.IsWhole) (hc : ¬atFirst i)
    (x0 : Vec F S10000x128 .f32) (x1 : Vec F S400x10000 .f32) (x2 : Vec F S128x128 .f32) (x3 : Vec F S1x128 .f32) (x4 : Vec F S128x64 .f32) (s : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (outH x1 s x3) ∗ owns (c : Thread nD τ) arg7 fullShare (outP x1 s x3 x4) ∗ owns (c : Thread nD τ) arg8 fullShare s) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, Hk⟩
  subst hf0 hf1 hf2 hf3 hf4 hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    exact View.read_writes_eq_canon _ _ _ (coverH _)
  isplitl [H7]
  · iexists _; isplitr
    swap; · iexact H7
    ipureintro
    exact View.read_writes_eq_canon _ _ _ (coverP _)
  iexists f8; isplitr; · ipureintro; rfl
  iexact H8

/-! ## The body's triple at the first point: the scratch comes in at anything and goes out at x·W1, which the outputs already read -/

set_option maxHeartbeats 4000000 in
theorem sound_first (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S400x128 .f32) (harg6 : arg6.IsWhole)
    (arg7 : Memref sig .tc .vmem S400x64 .f32) (harg7 : arg7.IsWhole) (arg8 : Memref sig .tc .vmem S10000x128 .f32) (harg8 : arg8.IsWhole) (hc : atFirst i)
    (x0 : Vec F S10000x128 .f32) (x1 : Vec F S400x10000 .f32) (x2 : Vec F S128x128 .f32) (x3 : Vec F S1x128 .f32) (x4 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (outH x1 (s1 x0 x2) x3) ∗ owns (c : Thread nD τ) arg7 fullShare (outP x1 (s1 x0 x2) x3 x4) ∗ owns (c : Thread nD τ) arg8 fullShare (s1 x0 x2)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, Hk⟩
  subst hf0 hf1 hf2 hf3 hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_run_names
    rw [View.readCov_eq_canon']
    exact View.read_writes_eq_canon _ _ _ (coverH _)
  isplitl [H7]
  · iexists _; isplitr
    swap; · iexact H7
    ipureintro
    sl_unfold_run_names
    rw [View.readCov_eq_canon']
    exact View.read_writes_eq_canon _ _ _ (coverP _)
  iexists _; isplitr
  swap; · iexact H8
  ipureintro
  sl_unfold_run_names
  exact View.read_writes_eq_canon _ _ _ (coverS _)

/-! ## The windows' blocks, the carried scratch, the invariant -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the pipeline fetched it there or kept it from
    an earlier point (its block index has not moved since). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- No window is idle at any point: the body stores both outputs at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

/-- The first grid point. -/
abbrev t0 : Fin cfg0.N := ⟨0, lt_of_lt_of_eq (by decide : 0 < 25) (show cfg0.N = 25 from N_0).symm⟩

/-- What the scratch holds after any point: x·W1 as the first point stored it, from the first point's blocks of x and W1. -/
def S1 (c : Dev nD) : Vec F S10000x128 .f32 := s1 (iblk V c 0 t0) (iblk V c 2 t0)

/-- The core's other scoped buffers (the second pass's staging buffers), each whole at some contents: this pass does not touch them. -/
def Rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region, with the scratch as an owned memref at some contents. -/
theorem PhiA_eq (c : Dev nD) :
    (Pipeline.ΦA spec0 c : sProp 𝕄)
      = iprop(iprop((∃ d, owns (c : Thread nD τ) scM fullShare d) ∗ Rest c) ∗ (∃ r, prngReg c r)) := by
  unfold Pipeline.ΦA Rest; rw [scopedRest0_eq]; simp only [scM, owns_whole]; try rfl

/-- The region's invariant before position `n`: before the first point what the launch hands it (the scratch at anything);
    afterwards the scratch at x·W1, the other scoped buffers at anything, the generator register at some state. -/
def PhiS (c : Dev nD) : (n : ℕ) → n ≤ cfg0.N → sProp 𝕄
  | 0, _ => Pipeline.ΦA spec0 c
  | _ + 1, _ => iprop(iprop(owns (c : Thread nD τ) scM fullShare (S1 V c) ∗ Rest c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n + 1 ≤ cfg0.N) :
    PhiS V c (n + 1) hn = iprop(iprop(owns (c : Thread nD τ) scM fullShare (S1 V c) ∗ Rest c) ∗ (∃ r, prngReg c r)) := rfl
theorem PhiS_pos (c : Dev nD) (n : ℕ) (h : n ≤ cfg0.N) (hz : n ≠ 0) :
    PhiS V c n h = iprop(iprop(owns (c : Thread nD τ) scM fullShare (S1 V c) ∗ Rest c) ∗ (∃ r, prngReg c r)) := by
  cases n with
  | zero => exact absurd rfl hz
  | succ n => rfl

/-! ## The region's proof data -/

/-- The proof data of the first pass on core `c`: the arrays as the region finds them; after the body at point `t` each
    input's buffer still at its block, the h block and the h·W2 block at what the body stored from the point's adjacency
    block, the carried x·W1 and the bias and weight blocks; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outH (iblk V c 1 t) (S1 V c) (iblk V c 3 t)
    | ⟨6, _⟩ => outP (iblk V c 1 t) (S1 V c) (iblk V c 3 t) (iblk V c 4 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = outH (iblk V c 1 t) (S1 V c) (iblk V c 3 t) := by dsimp only [dat]
theorem after6 (c : Dev nD) (t : Fin cfg0.N) : (dat V c).after 6 t = outP (iblk V c 1 t) (S1 V c) (iblk V c 3 t) (iblk V c 4 t) := by dsimp only [dat]
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem leaves0 (c : Dev nD) (t : Fin cfg0.N) :
    (dat V c).leavesExact 0 t = owns (c : Thread nD τ) (st0_0 t) fullShare (iblk V c 0 t) := by
  unfold Dat.leavesExact; rw [live0 t, after0]
theorem leaves1 (c : Dev nD) (t : Fin cfg0.N) :
    (dat V c).leavesExact 1 t = owns (c : Thread nD τ) (st0_1 t) fullShare (iblk V c 1 t) := by
  unfold Dat.leavesExact; rw [live1 t, after1]
theorem leaves2 (c : Dev nD) (t : Fin cfg0.N) :
    (dat V c).leavesExact 2 t = owns (c : Thread nD τ) (st0_2 t) fullShare (iblk V c 2 t) := by
  unfold Dat.leavesExact; rw [live2 t, after2]
theorem leaves3 (c : Dev nD) (t : Fin cfg0.N) :
    (dat V c).leavesExact 3 t = owns (c : Thread nD τ) (st0_3 t) fullShare (iblk V c 3 t) := by
  unfold Dat.leavesExact; rw [live3 t, after3]
theorem leaves4 (c : Dev nD) (t : Fin cfg0.N) :
    (dat V c).leavesExact 4 t = owns (c : Thread nD τ) (st0_4 t) fullShare (iblk V c 4 t) := by
  unfold Dat.leavesExact; rw [live4 t, after4]
theorem leaves5 (c : Dev nD) (t : Fin cfg0.N) :
    (dat V c).leavesExact 5 t = owns (c : Thread nD τ) (st0_5 t) fullShare (outH (iblk V c 1 t) (S1 V c) (iblk V c 3 t)) := by
  unfold Dat.leavesExact; rw [live5 t, after5]
theorem leaves6 (c : Dev nD) (t : Fin cfg0.N) :
    (dat V c).leavesExact 6 t = owns (c : Thread nD τ) (st0_6 t) fullShare (outP (iblk V c 1 t) (S1 V c) (iblk V c 3 t) (iblk V c 4 t)) := by
  unfold Dat.leavesExact; rw [live6 t, after6]

theorem PhiS_castSucc (c : Dev nD) (t : Fin cfg0.N) :
    (dat V c).Φ t.castSucc = PhiS V c t.val (Nat.le_of_lt t.isLt) := by
  dsimp only [dat]; simp only [Fin.coe_castSucc]

/-! ## The body at a point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
/-- The body at any point. At the first point the invariant hands it the scratch at anything and takes it back at x·W1;
    at a later point it hands it the scratch at x·W1 and takes it back unchanged; either way the inputs' buffers hold their
    blocks and the outputs end at what the body stored. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5, leaves6, PhiS_castSucc V c t]
  by_cases h0 : t.val % 25 = 0
  · obtain rfl : t = t0 := Fin.ext (by
      have hlt : t.val < 25 := lt_of_lt_of_eq t.isLt (show cfg0.N = 25 from N_0)
      show t.val = 0; omega)
    rw [PhiS_zero V c _ _ rfl, PhiA_eq]
    unfold S1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_first c Set.univ _ _ _ _ _ _ _ _ _ _ _ _ _ _ _ _ _ ((atFirst_iff t0).mpr h0)
      (iblk V c 0 t0) (iblk V c 1 t0) (iblk V c 2 t0) (iblk V c 3 t0) (iblk V c 4 t0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ _ (fun hz => h0 (by rw [hz]))]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_later c Set.univ _ _ _ _ _ _ _ _ _ _ _ _ _ _ _ _ _ (fun h => h0 ((atFirst_iff t).mp h))
      (iblk V c 0 t) (iblk V c 1 t) (iblk V c 2 t) (iblk V c 3 t) (iblk V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The obligation the launch asks for, at every point. -/
theorem body_obligation (c : Dev nD) : BodyObligation (dat (F := F) V c) (defs₀ (F := F)) Variants.none () Set.univ := fun t => by
  rw [bigSep_W0, bigSep_W0]
  exact sound_body V c t

/-- Before the first point the invariant is what the launch hands the region. -/
theorem Phi_first (c : Dev nD) : (dat V c).Φ 0 = Pipeline.ΦA spec0 c := rfl

/-- After the last point the invariant gives that back: the scratch's contents are forgotten. -/
theorem Phi_last (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 25 := N_0; omega), PhiA_eq]
  iintro ⟨⟨HS, HR⟩, Hg⟩
  isplitl [HS HR]
  · isplitl [HS]; · iexists _; iexact HS
    iexact HR
  iexact Hg

end Cert.Kernel.PassOne

end
-- ==== Proof.PassTwoBits.lean ====
/-
  The second pass of the two-layer graph convolution, as a pipeline region: at every grid point the body reads a
  400-row block of the adjacency matrix, the whole [10000, 64] product h·W2 and the bias row, and stores into its two
  output blocks z = adj_block · (h·W2) + b2 and the row-wise log-softmax of z. Stated at any float instance:
  what each output block holds after the body (one whole-buffer store each, so the canon of one piece), the body's
  triple, the proof data of the region at the buffer contents `V` the region is entered from, and the obligation
  the launch theorem asks for at every point. The region keeps nothing between points: its invariant is the scoped
  rest and the generator register, untouched.
-/
import proofs.«179412_g78735340470967_cont_sun_c4_260_3_alg».proof.Proof.Gen.Kernel.Launch
import proofs.«179412_g78735340470967_cont_sun_c4_260_3_alg».proof.Proof.Gen.Kernel.Skeleton
import proofs.«179412_g78735340470967_cont_sun_c4_260_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.PassTwo

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept it
    from an earlier point (its block index has not moved since), for any proof data over the arrays `V` whose body leaves
    the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or kept it
    from an earlier point (its block index has not moved since), for any proof data over the arrays `V` whose body leaves
    the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or kept it
    from an earlier point (its block index has not moved since), for any proof data over the arrays `V` whose body leaves
    the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rAdj : Rect S400x10000 := Rect.unit (s := S400x10000) ![0, 0] S400x10000.size inb_S400x10000_S400x10000_0_0
abbrev rP : Rect S10000x64 := Rect.unit (s := S10000x64) ![0, 0] S10000x64.size inb_S10000x64_S10000x64_0_0
abbrev rB : Rect S1x64 := Rect.unit (s := S1x64) ![0, 0] S1x64.size inb_S1x64_S1x64_0_0
abbrev rOut : Rect S400x64 := Rect.unit (s := S400x64) ![0, 0] S400x64.size inb_S400x64_S400x64_0_0

/-- The log-softmax block after the body: its one store, of the row-wise log-softmax of z. -/
def outLz (x0 : Vec F S400x10000 .f32) (x1 : Vec F S10000x64 .f32) (x2 : Vec F S1x64 .f32) : Vec F S400x64 .f32 :=
  View.canon [⟨rOut, k1_pay2 (View.ld x0 rAdj) (View.ld x1 rP) (View.ld x2 rB)⟩]
/-- The z block after the body: its one store, of adj_block · (h·W2) + b2. -/
def outZ (x0 : Vec F S400x10000 .f32) (x1 : Vec F S10000x64 .f32) (x2 : Vec F S1x64 .f32) : Vec F S400x64 .f32 :=
  View.canon [⟨rOut, k1_pay1 (View.ld x0 rAdj) (View.ld x1 rP) (View.ld x2 rB)⟩]

/-- One store through the whole-buffer rectangle covers the buffer. -/
theorem coverOut (p0 : Vec F S400x64 .f32) (y : S400x64.Idx) :
    ∃ pc ∈ ([⟨rOut, p0⟩] : List (View.Piece (Elt F) S400x64 .f32)), y ∈ pc.1.set :=
  View.cover_of_tiled [⟨rOut, p0⟩] S400x64.size (by rfl) y

set_option maxHeartbeats 4000000 in
/-- The body on whole staging buffers, the inputs' at known contents and the outputs' at anything, runs to the
    continuation with the inputs' as they were and each output's at what its store wrote. -/
theorem sound_kernel (c : Dev nD) (E : Set ℕ) (i : grid1.Coords)
    (arg1 : Memref sig .tc .vmem S400x10000 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S400x64 .f32) (harg4 : arg4.IsWhole)
    (arg5 : Memref sig .tc .vmem S400x64 .f32) (harg5 : arg5.IsWhole)
    (x0 : Vec F S400x10000 .f32) (x1 : Vec F S10000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outLz x0 x1 x2) ∗ owns (c : Thread nD τ) arg5 fullShare (outZ x0 x1 x2)) -∗ K ⟨⟩))
      ⊢ wp frame (wpE (defs₀ (F := F)) Variants.none c none) E (cc1__pass2_kernel i arg1 harg1 arg2 harg2 arg3 harg3 arg4 harg4 arg5 harg5) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut _)
  iexists _; isplitr
  swap; · iexact H4
  ipureintro
  exact View.read_writes_eq_canon _ _ _ (coverOut _)

/-! ## The region's proof data -/

/-- The proof data of the second pass on core `c`: the arrays as the region finds them; after the body at point `t`
    each input's buffer still at its block, the log-softmax block and the z block at what the body stored from the
    point's input blocks; the invariant the scoped rest and the generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outLz (iblk V c 0 t) (iblk V c 1 t) (iblk V c 2 t)
    | ⟨4, _⟩ => outZ (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outLz (iblk V c 0 t) (iblk V c 1 t) (iblk V c 2 t) := by dsimp only [dat]
theorem after4 (c : Dev nD) (t : Fin cfg1.N) : (dat V c).after 4 t = outZ (iblk V c 0 t) (iblk V c 1 t) (iblk V c 2 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-! ## The body at a point -/

/-- What the body is called with at point `t`: the invariant, the core's dues, every window's current staging buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the launch asks for, at every point. -/
theorem body_obligation (c : Dev nD) : BodyObligation (dat (F := F) V c) (defs₀ (F := F)) Variants.none () Set.univ := fun t => by
  rw [bigSep_W1, bigSep_W1]
  exact sound_body V c t

end Cert.Kernel.PassTwo

end
-- ==== Proof.WholeRunBits.lean ====
/-
  The whole program as a run: @main is a reshape of the first bias, the first pass, a reshape of the second bias, the second
  pass. The buffer contents at each boundary are a fold from the launch memory — a host line's result, or a pass's arrays at
  what its write-backs leave — and every weakly fair execution ends with the three results at what the two passes' proof data
  say their output arrays hold, and the six arguments as launched (no line and no pass writes one). At any float instance.
-/
import proofs.«179412_g78735340470967_cont_sun_c4_260_3_alg».proof.Proof.PassOneBits
import proofs.«179412_g78735340470967_cont_sun_c4_260_3_alg».proof.Proof.PassTwoBits

set_option maxRecDepth 16384

noncomputable section

namespace Cert.Kernel.WholeRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape of the first bias (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the first pass's exit: its arrays at what the pipeline leaves (the inputs as entered, each output's write-backs folded),
    every other buffer as entered. -/
def W2 (c : Dev nD) : Valuation τ sig (Elt F) :=
  Pipeline.withArrays spec0 c (W1 m ρ c) fun w => (PassOne.dat (V1 m ρ) c).arrAt w cfg0.N
theorem W2_arr (c : Dev nD) (w : Fin cfg0.W) :
    W2 m ρ c (Proc.devRef .tc (Pipeline.arrRef spec0 w)) = (PassOne.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (PassOne.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the second bias (the second pass's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the second pass's exit: its arrays at what the pipeline leaves (the inputs as entered, each output's write-backs folded),
    every other buffer as entered. -/
def W4 (c : Dev nD) : Valuation τ sig (Elt F) :=
  Pipeline.withArrays spec1 c (W3 m ρ c) fun w => (PassTwo.dat (V3 m ρ) c).arrAt w cfg1.N
theorem W4_arr (c : Dev nD) (w : Fin cfg1.W) :
    W4 m ρ c (Proc.devRef .tc (Pipeline.arrRef spec1 w)) = (PassTwo.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (PassTwo.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and where the results are -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((PassOne.dat (V1 m ρ) c).arrAt_in 0 rfl _).trans (PassOne.A_eq (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((PassTwo.dat (V3 m ρ) c).arrAt_in 0 rfl _).trans (PassTwo.A_eq (V3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((PassOne.dat (V1 m ρ) c).arrAt_in 1 rfl _).trans (PassOne.A_eq (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((PassOne.dat (V1 m ρ) c).arrAt_in 2 rfl _).trans (PassOne.A_eq (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 4).trans (((PassOne.dat (V1 m ρ) c).arrAt_in 4 rfl _).trans (PassOne.A_eq (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The log-softmax result is the second pass's first output array. -/
theorem W4_lz (c : Dev nD) : W4 m ρ c (Proc.devRef .tc main_v0_0) = (PassTwo.dat (V3 m ρ) c).arrAt 3 cfg1.N := W4_arr m ρ c 3
/-- The z result is its second output array. -/
theorem W4_z (c : Dev nD) : W4 m ρ c (Proc.devRef .tc main_v0_2) = (PassTwo.dat (V3 m ρ) c).arrAt 4 cfg1.N := W4_arr m ρ c 4
/-- The h result is the first pass's first output array: the second bias's reshape and the second pass leave it alone. -/
theorem W4_h (c : Dev nD) : W4 m ρ c (Proc.devRef .tc main_v0_1) = (PassOne.dat (V1 m ρ) c).arrAt 5 cfg0.N :=
  calc W4 m ρ c (Proc.devRef .tc main_v0_1)
    _ = W3 m ρ c (Proc.devRef .tc main_v0_1) := W4_of_ne m ρ c main_v0_1 (by decide)
    _ = W2 m ρ c (Proc.devRef .tc main_v0_1) := StableHlo.after_of_forall_not_mem (b := Proc.devRef .tc main_v0_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (PassOne.dat (V1 m ρ) c).arrAt 5 cfg0.N := W2_arr m ρ c 5

/-! ## The proof data family and the thread state -/

abbrev adm : (p : Fin 2) → (pcfgs (F := F) p).Adm := fun p => (cfgs p).toPCfg_adm
/-- Each pass's proof data at its entry contents: a literal match, so that a pipeline's number picks its printed configuration. -/
def pdats : (p : Fin 2) → (c : Dev nD) → Dat τ (Elt F) Unit ℕ (UR sig nD τ) ℕ (Pipeline.pin (pcfgs (F := F)) adm p) c
  | ⟨0, _⟩ => fun c => PassOne.dat (V1 m ρ) c
  | ⟨1, _⟩ => fun c => PassTwo.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two passes as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (PassOne.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from PassOne.Phi_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (PassTwo.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, with the
    three results at the passes' output arrays and the six arguments as launched. -/
theorem run_main : θ_run defs (onTc (τ := τ) (main (F := F))) ⟨m, fun _ => 0, ρ⟩ (fun r => ∀ c : Dev nD,
      r.2.mem ((c.tc : Thread nD τ).loc main_v0_0) = (PassTwo.dat (V3 m ρ) c).arrAt 3 cfg1.N
      ∧ r.2.mem ((c.tc : Thread nD τ).loc main_v0_1) = (PassOne.dat (V1 m ρ) c).arrAt 5 cfg0.N
      ∧ r.2.mem ((c.tc : Thread nD τ).loc main_v0_2) = (PassTwo.dat (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v0_0 (by decide))).trans (W4_lz m ρ c),
       (h c _ (mem_uc main_v0_1 (by decide))).trans (W4_h m ρ c),
       (h c _ (mem_uc main_v0_2 (by decide))).trans (W4_z m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The frame: the run with the results dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2.2) (run_main m ρ)

end Cert.Kernel.WholeRun

end
-- ==== Proof.PassOneIdeal.lean ====
/-
  The first pass of the two-layer graph convolution, as a pipeline region of 25 grid points. At the first point the body
  computes the product x·W1 of the whole feature matrix with the first weight matrix and keeps it in a scratch buffer;
  at every point it reads a 400-row block of the adjacency matrix and that scratch, and stores into its two output
  blocks h = max(adj_block · (x·W1) + b1, 0) and h · W2. The scratch is carried from point to point: after any point
  it holds x·W1 as the first point stored it. Stated at any float instance.
-/
import proofs.«179412_g78735340470967_cont_sun_c4_260_3_alg».proof.Proof.Gen.KernelIdeal.Launch
import proofs.«179412_g78735340470967_cont_sun_c4_260_3_alg».proof.Proof.Gen.KernelIdeal.Skeleton
import proofs.«179412_g78735340470967_cont_sun_c4_260_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassOne

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is of a whole buffer -/

abbrev rX : Rect S10000x128 := Rect.unit (s := S10000x128) ![0, 0] S10000x128.size inb_S10000x128_S10000x128_0_0
abbrev rAdj : Rect S400x10000 := Rect.unit (s := S400x10000) ![0, 0] S400x10000.size inb_S400x10000_S400x10000_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rH : Rect S400x128 := Rect.unit (s := S400x128) ![0, 0] S400x128.size inb_S400x128_S400x128_0_0
abbrev rPo : Rect S400x64 := Rect.unit (s := S400x64) ![0, 0] S400x64.size inb_S400x64_S400x64_0_0

/-- The scratch operand: a whole scoped buffer of the kernel's own. -/
abbrev scM : Memref sig .tc .vmem S10000x128 .f32 := Memref.whole cc0_scratch0

/-- What the first point leaves in the scratch: its one store, of x·W1. -/
def s1 (x0 : Vec F S10000x128 .f32) (x2 : Vec F S128x128 .f32) : Vec F S10000x128 .f32 :=
  View.canon [⟨rX, k0_pay1 (View.ld x0 rX) (View.ld x2 rW1)⟩]
/-- The h block after the body, from the adjacency block, the scratch's contents and the bias row. -/
def outH (x1 : Vec F S400x10000 .f32) (s : Vec F S10000x128 .f32) (x3 : Vec F S1x128 .f32) : Vec F S400x128 .f32 :=
  View.canon [⟨rH, k0_pay2 (View.ld x1 rAdj) (View.ld s rX) (View.ld x3 rB1)⟩]
/-- The h·W2 block after the body. -/
def outP (x1 : Vec F S400x10000 .f32) (s : Vec F S10000x128 .f32) (x3 : Vec F S1x128 .f32) (x4 : Vec F S128x64 .f32) : Vec F S400x64 .f32 :=
  View.canon [⟨rPo, k0_pay3 (View.ld x1 rAdj) (View.ld s rX) (View.ld x3 rB1) (View.ld x4 rW2)⟩]

theorem coverS (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y
theorem coverH (p0 : Vec F S400x128 .f32) (y : S400x128.Idx) :
    ∃ pc ∈ ([⟨rH, p0⟩] : List (View.Piece (Elt F) S400x128 .f32)), y ∈ pc.1.set :=
  View.cover_of_tiled [⟨rH, p0⟩] S400x128.size (by rfl) y
theorem coverP (p0 : Vec F S400x64 .f32) (y : S400x64.Idx) :
    ∃ pc ∈ ([⟨rPo, p0⟩] : List (View.Piece (Elt F) S400x64 .f32)), y ∈ pc.1.set :=
  View.cover_of_tiled [⟨rPo, p0⟩] S400x64.size (by rfl) y

/-! ## The body's one branch: taken at the first grid point only -/

/-- The condition of the body's `scf.if`, from the grid coordinate (the scalar chain the body computes). -/
abbrev atFirst (i : grid0.Coords) : Prop :=
  (Scalar.cmpi .ne (Scalar.extui (Scalar.cmpi .eq (BitVec.ofNat 32 (i 0).val) 0#32)) 0#32) = 1#1
/-- It holds at the first point and at no other — decided over the grid. -/
theorem atFirst_iff : ∀ t : Fin cfg0.N, atFirst (grid0.coords t) ↔ t.val % 25 = 0 :=
  (by decide +kernel : ∀ t : Fin grid0.N, atFirst (grid0.coords t) ↔ t.val % 25 = 0)

/-! ## The body's triple at a later point: the scratch comes in at known contents and goes out unchanged -/

set_option maxHeartbeats 4000000 in
theorem sound_later (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S400x128 .f32) (harg6 : arg6.IsWhole)
    (arg7 : Memref sig .tc .vmem S400x64 .f32) (harg7 : arg7.IsWhole) (arg8 : Memref sig .tc .vmem S10000x128 .f32) (harg8 : arg8.IsWhole) (hc : ¬atFirst i)
    (x0 : Vec F S10000x128 .f32) (x1 : Vec F S400x10000 .f32) (x2 : Vec F S128x128 .f32) (x3 : Vec F S1x128 .f32) (x4 : Vec F S128x64 .f32) (s : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (outH x1 s x3) ∗ owns (c : Thread nD τ) arg7 fullShare (outP x1 s x3 x4) ∗ owns (c : Thread nD τ) arg8 fullShare s) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, Hk⟩
  subst hf0 hf1 hf2 hf3 hf4 hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    exact View.read_writes_eq_canon _ _ _ (coverH _)
  isplitl [H7]
  · iexists _; isplitr
    swap; · iexact H7
    ipureintro
    exact View.read_writes_eq_canon _ _ _ (coverP _)
  iexists f8; isplitr; · ipureintro; rfl
  iexact H8

/-! ## The body's triple at the first point: the scratch comes in at anything and goes out at x·W1, which the outputs already read -/

set_option maxHeartbeats 4000000 in
theorem sound_first (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S400x128 .f32) (harg6 : arg6.IsWhole)
    (arg7 : Memref sig .tc .vmem S400x64 .f32) (harg7 : arg7.IsWhole) (arg8 : Memref sig .tc .vmem S10000x128 .f32) (harg8 : arg8.IsWhole) (hc : atFirst i)
    (x0 : Vec F S10000x128 .f32) (x1 : Vec F S400x10000 .f32) (x2 : Vec F S128x128 .f32) (x3 : Vec F S1x128 .f32) (x4 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (outH x1 (s1 x0 x2) x3) ∗ owns (c : Thread nD τ) arg7 fullShare (outP x1 (s1 x0 x2) x3 x4) ∗ owns (c : Thread nD τ) arg8 fullShare (s1 x0 x2)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, Hk⟩
  subst hf0 hf1 hf2 hf3 hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_run_names
    rw [View.readCov_eq_canon']
    exact View.read_writes_eq_canon _ _ _ (coverH _)
  isplitl [H7]
  · iexists _; isplitr
    swap; · iexact H7
    ipureintro
    sl_unfold_run_names
    rw [View.readCov_eq_canon']
    exact View.read_writes_eq_canon _ _ _ (coverP _)
  iexists _; isplitr
  swap; · iexact H8
  ipureintro
  sl_unfold_run_names
  exact View.read_writes_eq_canon _ _ _ (coverS _)

/-! ## The windows' blocks, the carried scratch, the invariant -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the pipeline fetched it there or kept it from
    an earlier point (its block index has not moved since). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- No window is idle at any point: the body stores both outputs at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

/-- The first grid point. -/
abbrev t0 : Fin cfg0.N := ⟨0, lt_of_lt_of_eq (by decide : 0 < 25) (show cfg0.N = 25 from N_0).symm⟩

/-- What the scratch holds after any point: x·W1 as the first point stored it, from the first point's blocks of x and W1. -/
def S1 (c : Dev nD) : Vec F S10000x128 .f32 := s1 (iblk V c 0 t0) (iblk V c 2 t0)

/-- The core's other scoped buffers (the second pass's staging buffers), each whole at some contents: this pass does not touch them. -/
def Rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region, with the scratch as an owned memref at some contents. -/
theorem PhiA_eq (c : Dev nD) :
    (Pipeline.ΦA spec0 c : sProp 𝕄)
      = iprop(iprop((∃ d, owns (c : Thread nD τ) scM fullShare d) ∗ Rest c) ∗ (∃ r, prngReg c r)) := by
  unfold Pipeline.ΦA Rest; rw [scopedRest0_eq]; simp only [scM, owns_whole]; try rfl

/-- The region's invariant before position `n`: before the first point what the launch hands it (the scratch at anything);
    afterwards the scratch at x·W1, the other scoped buffers at anything, the generator register at some state. -/
def PhiS (c : Dev nD) : (n : ℕ) → n ≤ cfg0.N → sProp 𝕄
  | 0, _ => Pipeline.ΦA spec0 c
  | _ + 1, _ => iprop(iprop(owns (c : Thread nD τ) scM fullShare (S1 V c) ∗ Rest c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n + 1 ≤ cfg0.N) :
    PhiS V c (n + 1) hn = iprop(iprop(owns (c : Thread nD τ) scM fullShare (S1 V c) ∗ Rest c) ∗ (∃ r, prngReg c r)) := rfl
theorem PhiS_pos (c : Dev nD) (n : ℕ) (h : n ≤ cfg0.N) (hz : n ≠ 0) :
    PhiS V c n h = iprop(iprop(owns (c : Thread nD τ) scM fullShare (S1 V c) ∗ Rest c) ∗ (∃ r, prngReg c r)) := by
  cases n with
  | zero => exact absurd rfl hz
  | succ n => rfl

/-! ## The region's proof data -/

/-- The proof data of the first pass on core `c`: the arrays as the region finds them; after the body at point `t` each
    input's buffer still at its block, the h block and the h·W2 block at what the body stored from the point's adjacency
    block, the carried x·W1 and the bias and weight blocks; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outH (iblk V c 1 t) (S1 V c) (iblk V c 3 t)
    | ⟨6, _⟩ => outP (iblk V c 1 t) (S1 V c) (iblk V c 3 t) (iblk V c 4 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = outH (iblk V c 1 t) (S1 V c) (iblk V c 3 t) := by dsimp only [dat]
theorem after6 (c : Dev nD) (t : Fin cfg0.N) : (dat V c).after 6 t = outP (iblk V c 1 t) (S1 V c) (iblk V c 3 t) (iblk V c 4 t) := by dsimp only [dat]
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem leaves0 (c : Dev nD) (t : Fin cfg0.N) :
    (dat V c).leavesExact 0 t = owns (c : Thread nD τ) (st0_0 t) fullShare (iblk V c 0 t) := by
  unfold Dat.leavesExact; rw [live0 t, after0]
theorem leaves1 (c : Dev nD) (t : Fin cfg0.N) :
    (dat V c).leavesExact 1 t = owns (c : Thread nD τ) (st0_1 t) fullShare (iblk V c 1 t) := by
  unfold Dat.leavesExact; rw [live1 t, after1]
theorem leaves2 (c : Dev nD) (t : Fin cfg0.N) :
    (dat V c).leavesExact 2 t = owns (c : Thread nD τ) (st0_2 t) fullShare (iblk V c 2 t) := by
  unfold Dat.leavesExact; rw [live2 t, after2]
theorem leaves3 (c : Dev nD) (t : Fin cfg0.N) :
    (dat V c).leavesExact 3 t = owns (c : Thread nD τ) (st0_3 t) fullShare (iblk V c 3 t) := by
  unfold Dat.leavesExact; rw [live3 t, after3]
theorem leaves4 (c : Dev nD) (t : Fin cfg0.N) :
    (dat V c).leavesExact 4 t = owns (c : Thread nD τ) (st0_4 t) fullShare (iblk V c 4 t) := by
  unfold Dat.leavesExact; rw [live4 t, after4]
theorem leaves5 (c : Dev nD) (t : Fin cfg0.N) :
    (dat V c).leavesExact 5 t = owns (c : Thread nD τ) (st0_5 t) fullShare (outH (iblk V c 1 t) (S1 V c) (iblk V c 3 t)) := by
  unfold Dat.leavesExact; rw [live5 t, after5]
theorem leaves6 (c : Dev nD) (t : Fin cfg0.N) :
    (dat V c).leavesExact 6 t = owns (c : Thread nD τ) (st0_6 t) fullShare (outP (iblk V c 1 t) (S1 V c) (iblk V c 3 t) (iblk V c 4 t)) := by
  unfold Dat.leavesExact; rw [live6 t, after6]

theorem PhiS_castSucc (c : Dev nD) (t : Fin cfg0.N) :
    (dat V c).Φ t.castSucc = PhiS V c t.val (Nat.le_of_lt t.isLt) := by
  dsimp only [dat]; simp only [Fin.coe_castSucc]

/-! ## The body at a point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4000000 in
/-- The body at any point. At the first point the invariant hands it the scratch at anything and takes it back at x·W1;
    at a later point it hands it the scratch at x·W1 and takes it back unchanged; either way the inputs' buffers hold their
    blocks and the outputs end at what the body stored. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5, leaves6, PhiS_castSucc V c t]
  by_cases h0 : t.val % 25 = 0
  · obtain rfl : t = t0 := Fin.ext (by
      have hlt : t.val < 25 := lt_of_lt_of_eq t.isLt (show cfg0.N = 25 from N_0)
      show t.val = 0; omega)
    rw [PhiS_zero V c _ _ rfl, PhiA_eq]
    unfold S1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_first c Set.univ _ _ _ _ _ _ _ _ _ _ _ _ _ _ _ _ _ ((atFirst_iff t0).mpr h0)
      (iblk V c 0 t0) (iblk V c 1 t0) (iblk V c 2 t0) (iblk V c 3 t0) (iblk V c 4 t0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ _ (fun hz => h0 (by rw [hz]))]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_later c Set.univ _ _ _ _ _ _ _ _ _ _ _ _ _ _ _ _ _ (fun h => h0 ((atFirst_iff t).mp h))
      (iblk V c 0 t) (iblk V c 1 t) (iblk V c 2 t) (iblk V c 3 t) (iblk V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The obligation the launch asks for, at every point. -/
theorem body_obligation (c : Dev nD) : BodyObligation (dat (F := F) V c) (defs₀ (F := F)) Variants.none () Set.univ := fun t => by
  rw [bigSep_W0, bigSep_W0]
  exact sound_body V c t

/-- Before the first point the invariant is what the launch hands the region. -/
theorem Phi_first (c : Dev nD) : (dat V c).Φ 0 = Pipeline.ΦA spec0 c := rfl

/-- After the last point the invariant gives that back: the scratch's contents are forgotten. -/
theorem Phi_last (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 25 := N_0; omega), PhiA_eq]
  iintro ⟨⟨HS, HR⟩, Hg⟩
  isplitl [HS HR]
  · isplitl [HS]; · iexists _; iexact HS
    iexact HR
  iexact Hg

end Cert.KernelIdeal.PassOne

end
-- ==== Proof.PassTwoIdeal.lean ====
/-
  The second pass of the two-layer graph convolution, as a pipeline region: at every grid point the body reads a
  400-row block of the adjacency matrix, the whole [10000, 64] product h·W2 and the bias row, and stores into its two
  output blocks z = adj_block · (h·W2) + b2 and the row-wise log-softmax of z. Stated at any float instance:
  what each output block holds after the body (one whole-buffer store each, so the canon of one piece), the body's
  triple, the proof data of the region at the buffer contents `V` the region is entered from, and the obligation
  the launch theorem asks for at every point. The region keeps nothing between points: its invariant is the scoped
  rest and the generator register, untouched.
-/
import proofs.«179412_g78735340470967_cont_sun_c4_260_3_alg».proof.Proof.Gen.KernelIdeal.Launch
import proofs.«179412_g78735340470967_cont_sun_c4_260_3_alg».proof.Proof.Gen.KernelIdeal.Skeleton
import proofs.«179412_g78735340470967_cont_sun_c4_260_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.PassTwo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept it
    from an earlier point (its block index has not moved since), for any proof data over the arrays `V` whose body leaves
    the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or kept it
    from an earlier point (its block index has not moved since), for any proof data over the arrays `V` whose body leaves
    the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or kept it
    from an earlier point (its block index has not moved since), for any proof data over the arrays `V` whose body leaves
    the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rAdj : Rect S400x10000 := Rect.unit (s := S400x10000) ![0, 0] S400x10000.size inb_S400x10000_S400x10000_0_0
abbrev rP : Rect S10000x64 := Rect.unit (s := S10000x64) ![0, 0] S10000x64.size inb_S10000x64_S10000x64_0_0
abbrev rB : Rect S1x64 := Rect.unit (s := S1x64) ![0, 0] S1x64.size inb_S1x64_S1x64_0_0
abbrev rOut : Rect S400x64 := Rect.unit (s := S400x64) ![0, 0] S400x64.size inb_S400x64_S400x64_0_0

/-- The log-softmax block after the body: its one store, of the row-wise log-softmax of z. -/
def outLz (x0 : Vec F S400x10000 .f32) (x1 : Vec F S10000x64 .f32) (x2 : Vec F S1x64 .f32) : Vec F S400x64 .f32 :=
  View.canon [⟨rOut, k1_pay2 (View.ld x0 rAdj) (View.ld x1 rP) (View.ld x2 rB)⟩]
/-- The z block after the body: its one store, of adj_block · (h·W2) + b2. -/
def outZ (x0 : Vec F S400x10000 .f32) (x1 : Vec F S10000x64 .f32) (x2 : Vec F S1x64 .f32) : Vec F S400x64 .f32 :=
  View.canon [⟨rOut, k1_pay1 (View.ld x0 rAdj) (View.ld x1 rP) (View.ld x2 rB)⟩]

/-- One store through the whole-buffer rectangle covers the buffer. -/
theorem coverOut (p0 : Vec F S400x64 .f32) (y : S400x64.Idx) :
    ∃ pc ∈ ([⟨rOut, p0⟩] : List (View.Piece (Elt F) S400x64 .f32)), y ∈ pc.1.set :=
  View.cover_of_tiled [⟨rOut, p0⟩] S400x64.size (by rfl) y

set_option maxHeartbeats 4000000 in
/-- The body on whole staging buffers, the inputs' at known contents and the outputs' at anything, runs to the
    continuation with the inputs' as they were and each output's at what its store wrote. -/
theorem sound_kernel (c : Dev nD) (E : Set ℕ) (i : grid1.Coords)
    (arg1 : Memref sig .tc .vmem S400x10000 .f32) (harg1 : arg1.IsWhole) (arg2 : Memref sig .tc .vmem S10000x64 .f32) (harg2 : arg2.IsWhole)
    (arg3 : Memref sig .tc .vmem S1x64 .f32) (harg3 : arg3.IsWhole) (arg4 : Memref sig .tc .vmem S400x64 .f32) (harg4 : arg4.IsWhole)
    (arg5 : Memref sig .tc .vmem S400x64 .f32) (harg5 : arg5.IsWhole)
    (x0 : Vec F S400x10000 .f32) (x1 : Vec F S10000x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outLz x0 x1 x2) ∗ owns (c : Thread nD τ) arg5 fullShare (outZ x0 x1 x2)) -∗ K ⟨⟩))
      ⊢ wp frame (wpE (defs₀ (F := F)) Variants.none c none) E (cc1__pass2_kernel i arg1 harg1 arg2 harg2 arg3 harg3 arg4 harg4 arg5 harg5) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut _)
  iexists _; isplitr
  swap; · iexact H4
  ipureintro
  exact View.read_writes_eq_canon _ _ _ (coverOut _)

/-! ## The region's proof data -/

/-- The proof data of the second pass on core `c`: the arrays as the region finds them; after the body at point `t`
    each input's buffer still at its block, the log-softmax block and the z block at what the body stored from the
    point's input blocks; the invariant the scoped rest and the generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outLz (iblk V c 0 t) (iblk V c 1 t) (iblk V c 2 t)
    | ⟨4, _⟩ => outZ (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outLz (iblk V c 0 t) (iblk V c 1 t) (iblk V c 2 t) := by dsimp only [dat]
theorem after4 (c : Dev nD) (t : Fin cfg1.N) : (dat V c).after 4 t = outZ (iblk V c 0 t) (iblk V c 1 t) (iblk V c 2 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-! ## The body at a point -/

/-- What the body is called with at point `t`: the invariant, the core's dues, every window's current staging buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).Φ t.succ = (dat V c).Φ t.castSucc from rfl,
    show (dat V c).owesAt () t.succ = (dat V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the launch asks for, at every point. -/
theorem body_obligation (c : Dev nD) : BodyObligation (dat (F := F) V c) (defs₀ (F := F)) Variants.none () Set.univ := fun t => by
  rw [bigSep_W1, bigSep_W1]
  exact sound_body V c t

end Cert.KernelIdeal.PassTwo

end
-- ==== Proof.WholeRunIdeal.lean ====
/-
  The whole program as a run: @main is a reshape of the first bias, the first pass, a reshape of the second bias, the second
  pass. The buffer contents at each boundary are a fold from the launch memory — a host line's result, or a pass's arrays at
  what its write-backs leave — and every weakly fair execution ends with the three results at what the two passes' proof data
  say their output arrays hold, and the six arguments as launched (no line and no pass writes one). At any float instance.
-/
import proofs.«179412_g78735340470967_cont_sun_c4_260_3_alg».proof.Proof.PassOneIdeal
import proofs.«179412_g78735340470967_cont_sun_c4_260_3_alg».proof.Proof.PassTwoIdeal

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape of the first bias (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the first pass's exit: its arrays at what the pipeline leaves (the inputs as entered, each output's write-backs folded),
    every other buffer as entered. -/
def W2 (c : Dev nD) : Valuation τ sig (Elt F) :=
  Pipeline.withArrays spec0 c (W1 m ρ c) fun w => (PassOne.dat (V1 m ρ) c).arrAt w cfg0.N
theorem W2_arr (c : Dev nD) (w : Fin cfg0.W) :
    W2 m ρ c (Proc.devRef .tc (Pipeline.arrRef spec0 w)) = (PassOne.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (PassOne.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the second bias (the second pass's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At the second pass's exit: its arrays at what the pipeline leaves (the inputs as entered, each output's write-backs folded),
    every other buffer as entered. -/
def W4 (c : Dev nD) : Valuation τ sig (Elt F) :=
  Pipeline.withArrays spec1 c (W3 m ρ c) fun w => (PassTwo.dat (V3 m ρ) c).arrAt w cfg1.N
theorem W4_arr (c : Dev nD) (w : Fin cfg1.W) :
    W4 m ρ c (Proc.devRef .tc (Pipeline.arrRef spec1 w)) = (PassTwo.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (PassTwo.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and where the results are -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((PassOne.dat (V1 m ρ) c).arrAt_in 0 rfl _).trans (PassOne.A_eq (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((PassTwo.dat (V3 m ρ) c).arrAt_in 0 rfl _).trans (PassTwo.A_eq (V3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((PassOne.dat (V1 m ρ) c).arrAt_in 1 rfl _).trans (PassOne.A_eq (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((PassOne.dat (V1 m ρ) c).arrAt_in 2 rfl _).trans (PassOne.A_eq (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 4).trans (((PassOne.dat (V1 m ρ) c).arrAt_in 4 rfl _).trans (PassOne.A_eq (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The log-softmax result is the second pass's first output array. -/
theorem W4_lz (c : Dev nD) : W4 m ρ c (Proc.devRef .tc main_v0_0) = (PassTwo.dat (V3 m ρ) c).arrAt 3 cfg1.N := W4_arr m ρ c 3
/-- The z result is its second output array. -/
theorem W4_z (c : Dev nD) : W4 m ρ c (Proc.devRef .tc main_v0_2) = (PassTwo.dat (V3 m ρ) c).arrAt 4 cfg1.N := W4_arr m ρ c 4
/-- The h result is the first pass's first output array: the second bias's reshape and the second pass leave it alone. -/
theorem W4_h (c : Dev nD) : W4 m ρ c (Proc.devRef .tc main_v0_1) = (PassOne.dat (V1 m ρ) c).arrAt 5 cfg0.N :=
  calc W4 m ρ c (Proc.devRef .tc main_v0_1)
    _ = W3 m ρ c (Proc.devRef .tc main_v0_1) := W4_of_ne m ρ c main_v0_1 (by decide)
    _ = W2 m ρ c (Proc.devRef .tc main_v0_1) := StableHlo.after_of_forall_not_mem (b := Proc.devRef .tc main_v0_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (PassOne.dat (V1 m ρ) c).arrAt 5 cfg0.N := W2_arr m ρ c 5

/-! ## The proof data family and the thread state -/

abbrev adm : (p : Fin 2) → (pcfgs (F := F) p).Adm := fun p => (cfgs p).toPCfg_adm
/-- Each pass's proof data at its entry contents: a literal match, so that a pipeline's number picks its printed configuration. -/
def pdats : (p : Fin 2) → (c : Dev nD) → Dat τ (Elt F) Unit ℕ (UR sig nD τ) ℕ (Pipeline.pin (pcfgs (F := F)) adm p) c
  | ⟨0, _⟩ => fun c => PassOne.dat (V1 m ρ) c
  | ⟨1, _⟩ => fun c => PassTwo.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two passes as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (PassOne.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from PassOne.Phi_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (PassTwo.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, with the
    three results at the passes' output arrays and the six arguments as launched. -/
theorem run_main : θ_run defs (onTc (τ := τ) (main (F := F))) ⟨m, fun _ => 0, ρ⟩ (fun r => ∀ c : Dev nD,
      r.2.mem ((c.tc : Thread nD τ).loc main_v0_0) = (PassTwo.dat (V3 m ρ) c).arrAt 3 cfg1.N
      ∧ r.2.mem ((c.tc : Thread nD τ).loc main_v0_1) = (PassOne.dat (V1 m ρ) c).arrAt 5 cfg0.N
      ∧ r.2.mem ((c.tc : Thread nD τ).loc main_v0_2) = (PassTwo.dat (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v0_0 (by decide))).trans (W4_lz m ρ c),
       (h c _ (mem_uc main_v0_1 (by decide))).trans (W4_h m ρ c),
       (h c _ (mem_uc main_v0_2 (by decide))).trans (W4_z m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The frame: the run with the results dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2.2) (run_main m ρ)

end Cert.KernelIdeal.WholeRun

end
-- ==== Proof.Spec.lean ====
/-
  The values the two programs compute, as plain functions of the arrays' entries, over the extended reals.

  A two-layer graph convolution with a dense adjacency: `S = x · W1`, `H = max (adj · S + b1) 0`, `P = H · W2`,
  `Z = adj · P + b2`, and the row log-softmax of `Z`: with `M` the row's maximum,
  `LS z j = (z j − M) − log (∑ j', exp (z j' − M))`.

  The row maximum is taken the way a reduction takes it: the fold of `max` over the row, from the value of the word
  `0xFF800000` (the encoding of −∞).  The word is kept as a word: nothing below depends on which extended real it is.
-/
import Idealize.ShloMosaic.PureOps.Ideal
import Idealize.ShloMosaic.Lib.ValueIdx

noncomputable section

open scoped BigOperators

namespace Cert.Spec

open Idealize.ShloMosaic Idealize.ShloMosaic.ValueIdx

/-- A row's maximum: the fold of `max` over its 64 entries from the value of the word `0xFF800000`. -/
def rowMax (z : Fin 64 → EReal) : EReal :=
  (Finset.univ : Finset (Fin 64)).fold max (Ideal.ofBits .f32 0xFF800000#32) z

/-- The row log-softmax: each entry less the row's maximum, less the logarithm of the sum of the exponentials of
    the entries less the maximum. -/
def LS (z : Fin 64 → EReal) (j : Fin 64) : EReal :=
  (z j - rowMax z) - Ideal.log (∑ j' : Fin 64, Ideal.exp (z j' - rowMax z))

/-- Folding `max` from a value gives at least that value, so taking `max` with it once more changes nothing. -/
theorem max_init_fold {n : ℕ} (b : EReal) (f : Fin n → EReal) :
    max b ((Finset.univ : Finset (Fin n)).fold max b f) = (Finset.univ : Finset (Fin n)).fold max b f :=
  max_eq_right (Finset.le_fold_max b |>.mpr (Or.inl le_rfl))

/-- So the row maximum absorbs one more `max` with the value it starts from. -/
theorem max_init_rowMax (z : Fin 64 → EReal) :
    max (Ideal.ofBits .f32 0xFF800000#32) (rowMax z) = rowMax z :=
  max_init_fold _ z

variable (x : (⟨2, ![10000, 128]⟩ : Shape).Idx → EReal) (adj : (⟨2, ![10000, 10000]⟩ : Shape).Idx → EReal)
  (W1 : (⟨2, ![128, 128]⟩ : Shape).Idx → EReal) (b1 : (⟨1, ![128]⟩ : Shape).Idx → EReal)
  (W2 : (⟨2, ![128, 64]⟩ : Shape).Idx → EReal) (b2 : (⟨1, ![64]⟩ : Shape).Idx → EReal)

/-- `S = x · W1`. -/
def hS (k : Fin 10000) (j : Fin 128) : EReal := ∑ l : Fin 128, x (ix2 k l) * W1 (ix2 l j)

/-- `H = max (adj · S + b1) 0`. -/
def hH (r : Fin 10000) (j : Fin 128) : EReal :=
  max ((∑ k : Fin 10000, adj (ix2 r k) * hS x W1 k j) + b1 (ix1 j)) 0

/-- `P = H · W2`. -/
def hP (r : Fin 10000) (j : Fin 64) : EReal := ∑ k : Fin 128, hH x adj W1 b1 r k * W2 (ix2 k j)

/-- `Z = adj · P + b2`. -/
def hZ (r : Fin 10000) (j : Fin 64) : EReal :=
  (∑ k : Fin 10000, adj (ix2 r k) * hP x adj W1 b1 W2 k j) + b2 (ix1 j)

end Cert.Spec

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.KernelPay.lean ====
/-
  The five values the two kernel bodies compute, read at an index, over the extended reals.

  Each is its printed term unfolded one operation at a time: a product into a zero accumulator is the sum of the
  products over the shared coordinate, a one-row array laid down the rows is read at its column, a shape cast to the
  same shape is the identity, and the row log-softmax is the function `Cert.Spec.LS` of the row.
-/
import proofs.«179412_g78735340470967_cont_sun_c4_260_3_alg».proof.Proof.Gen.KernelIdeal.Skeleton
import proofs.«179412_g78735340470967_cont_sun_c4_260_3_alg».proof.Proof.Spec
import proofs.«179412_g78735340470967_cont_sun_c4_260_3_alg».proof.Proof.LibPlainProduct
import proofs.«179412_g78735340470967_cont_sun_c4_260_3_alg».proof.Proof.LibBroadcast
import proofs.«179412_g78735340470967_cont_sun_c4_260_3_alg».proof.Proof.LibRowsProduct
import proofs.«179412_g78735340470967_cont_sun_c4_260_3_alg».proof.Proof.LibRowFolds
import Idealize.ShloMosaic.Lib.Pipeline.Value
import Idealize.ShloMosaic.Lib.ValueIdx
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## The four products, each into a zero accumulator -/

/-- `X · W` for `X : [10000, 128]`, `W : [128, 128]`. -/
theorem mm_xw (X : Vec Ideal S10000x128 .f32) (W : Vec Ideal S128x128 .f32) (k : Fin 10000) (j : Fin 128) :
    matmul (F := Ideal) (φ₁ := .f32) (φ₂ := .f32) dot_S10000x128_S128x128_S10000x128_1_0_0_1_n_n none X W
        (constant S10000x128 .f32 0x00000000#32) (ix2 k j)
      = ∑ l : Fin 128, X (ix2 k l) * W (ix2 l j) :=
  Cert.PlainProduct.matmul_nn_apply (φ₁ := .f32) (φ₂ := .f32) _ none X W k j

/-- `A · S` for `A : [400, 10000]`, `S : [10000, 128]`. -/
theorem mm_as (A : Vec Ideal S400x10000 .f32) (S : Vec Ideal S10000x128 .f32) (p : Fin 400) (j : Fin 128) :
    matmul (F := Ideal) (φ₁ := .f32) (φ₂ := .f32) dot_S400x10000_S10000x128_S400x128_1_0_0_1_n_n none A S
        (constant S400x128 .f32 0x00000000#32) (ix2 p j)
      = ∑ k : Fin 10000, A (ix2 p k) * S (ix2 k j) :=
  Cert.PlainProduct.matmul_nn_apply (φ₁ := .f32) (φ₂ := .f32) _ none A S p j

/-- `H · W` for `H : [400, 128]`, `W : [128, 64]`. -/
theorem mm_hw (H : Vec Ideal S400x128 .f32) (W : Vec Ideal S128x64 .f32) (p : Fin 400) (j : Fin 64) :
    matmul (F := Ideal) (φ₁ := .f32) (φ₂ := .f32) dot_S400x128_S128x64_S400x64_1_0_0_1_n_n none H W
        (constant S400x64 .f32 0x00000000#32) (ix2 p j)
      = ∑ k : Fin 128, H (ix2 p k) * W (ix2 k j) :=
  Cert.PlainProduct.matmul_nn_apply (φ₁ := .f32) (φ₂ := .f32) _ none H W p j

/-- `A · P` for `A : [400, 10000]`, `P : [10000, 64]`. -/
theorem mm_ap (A : Vec Ideal S400x10000 .f32) (Q : Vec Ideal S10000x64 .f32) (p : Fin 400) (j : Fin 64) :
    matmul (F := Ideal) (φ₁ := .f32) (φ₂ := .f32) dot_S400x10000_S10000x64_S400x64_1_0_0_1_n_n none A Q
        (constant S400x64 .f32 0x00000000#32) (ix2 p j)
      = ∑ k : Fin 10000, A (ix2 p k) * Q (ix2 k j) :=
  Cert.PlainProduct.matmul_nn_apply (φ₁ := .f32) (φ₂ := .f32) _ none A Q p j

/-! ## The first body's three values -/

/-- The support `x · W1` at `(k, j)`. -/
theorem pay1_apply (X : Vec Ideal S10000x128 .f32) (W : Vec Ideal S128x128 .f32) (k : Fin 10000) (j : Fin 128) :
    Gen.k0_pay1 (F := Ideal) X W (ix2 k j) = ∑ l : Fin 128, X (ix2 k l) * W (ix2 l j) := by
  unfold Gen.k0_pay1
  simp only [shapeCast_self]
  exact mm_xw X W k j

/-- The hidden layer `max (A · S + b) 0` at `(p, j)`; the zero is the value of the zero word. -/
theorem pay2_apply (A : Vec Ideal S400x10000 .f32) (S : Vec Ideal S10000x128 .f32) (B : Vec Ideal S1x128 .f32)
    (p : Fin 400) (j : Fin 128) :
    Gen.k0_pay2 (F := Ideal) A S B (ix2 p j)
      = max ((∑ k : Fin 10000, A (ix2 p k) * S (ix2 k j)) + B (ix2 0 j)) 0 := by
  unfold Gen.k0_pay2
  simp only [shapeCast_self, maximumf_apply, addf_apply, broadcast_apply]
  rw [mm_as, Cert.RowsProduct.broadcastTo_1n_an_apply]
  show max _ (Ideal.ofBits .f32 0x00000000#32) = _
  rw [Ideal.ofBits_zero_f32]

/-- The second layer's support `H · W2` at `(p, j)`, over the hidden layer's value. -/
theorem pay3_apply (A : Vec Ideal S400x10000 .f32) (S : Vec Ideal S10000x128 .f32) (B : Vec Ideal S1x128 .f32)
    (W : Vec Ideal S128x64 .f32) (p : Fin 400) (j : Fin 64) :
    Gen.k0_pay3 (F := Ideal) A S B W (ix2 p j)
      = ∑ k : Fin 128, Gen.k0_pay2 (F := Ideal) A S B (ix2 p k) * W (ix2 k j) := by
  unfold Gen.k0_pay3
  exact mm_hw (Gen.k0_pay2 (F := Ideal) A S B) W p j

/-! ## The second body's two values -/

/-- The output layer `A · P + b` at `(p, j)`. -/
theorem zpay_apply (A : Vec Ideal S400x10000 .f32) (Q : Vec Ideal S10000x64 .f32) (B : Vec Ideal S1x64 .f32)
    (p : Fin 400) (j : Fin 64) :
    Gen.k1_pay1 (F := Ideal) A Q B (ix2 p j) = (∑ k : Fin 10000, A (ix2 p k) * Q (ix2 k j)) + B (ix2 0 j) := by
  unfold Gen.k1_pay1
  simp only [shapeCast_self, addf_apply]
  rw [mm_ap, Cert.RowsProduct.broadcastTo_1n_an_apply]

/-! ## The row log-softmax

Two columns are kept and laid back along the 64 columns: the row maxima and the logarithms of the row sums. -/

/-- The row maxima, kept as a column and laid along the columns, read at `(p, c)`: the row's maximum. -/
theorem colMax_apply (V : FVec Ideal S400x64 .f32) (h : S400x64.Reduces [1] S400)
    (hacc : (0xFF800000#32 : BitVec 32) = 0xFF800000#32)
    (hc : S400.ShapeCasts S400x1) (hb : S400x1.Broadcasts S400x64) (p : Fin 400) (c : Fin 64) :
    broadcastTo S400x64 (shapeCast S400x1 (multiReduction .maximumf [1] S400 V 0xFF800000#32 h (.inl rfl) hacc) hc) hb
        (ix2 p c)
      = Cert.Spec.rowMax (fun k => V (ix2 p k)) :=
  (Cert.Layout.broadcastTo_a1_ab_apply _ hb p c).trans
    ((Cert.Layout.shapeCast_col_apply _ hc p).trans (Cert.RowFolds.laneMax_apply V _ h (.inl rfl) hacc p))

/-- The logarithms of the row sums, kept as a column and laid along the columns, read at `(p, c)`. -/
theorem colLogSum_apply (V : FVec Ideal S400x64 .f32) (h : S400x64.Reduces [1] S400)
    (hacc : (0x00000000#32 : BitVec 32) = 0x00000000#32)
    (hc : S400.ShapeCasts S400x1) (hb : S400x1.Broadcasts S400x64) (p : Fin 400) (c : Fin 64) :
    broadcastTo S400x64 (log (shapeCast S400x1 (multiReduction .add [1] S400 V 0x00000000#32 h (.inl rfl) hacc) hc)) hb
        (ix2 p c)
      = Ideal.log (∑ k : Fin 64, V (ix2 p k)) :=
  (Cert.Layout.broadcastTo_a1_ab_apply _ hb p c).trans
    (congrArg Ideal.log
      ((Cert.Layout.shapeCast_col_apply _ hc p).trans (Cert.RowFolds.laneSum_apply V _ h (.inl rfl) hacc p)))

/-- The row log-softmax of the output layer at `(p, j)`: `Cert.Spec.LS` of row `p` of the output layer. -/
theorem lzpay_apply (A : Vec Ideal S400x10000 .f32) (Q : Vec Ideal S10000x64 .f32) (B : Vec Ideal S1x64 .f32)
    (p : Fin 400) (j : Fin 64) :
    Gen.k1_pay2 (F := Ideal) A Q B (ix2 p j)
      = Cert.Spec.LS (fun j' => Gen.k1_pay1 (F := Ideal) A Q B (ix2 p j')) j := by
  unfold Gen.k1_pay2 Cert.Spec.LS
  generalize Gen.k1_pay1 (F := Ideal) A Q B = Z
  simp only [subf_apply]
  rw [colMax_apply, colLogSum_apply]
  refine congrArg (fun t => (Z (ix2 p j) - _) - Ideal.log t) (Finset.sum_congr rfl fun k _ => ?_)
  show Ideal.exp (Z (ix2 p k) - _) = _
  rw [colMax_apply]

end Cert.KernelIdeal.PayValue

end
-- ==== Proof.BlocksOne.lean ====
/-
  The first pass's output arrays as whole-array functions, at the extended reals. Block `t` of the h array is what point `t` stored:
  row `p` of it is max(∑ₖ adj(400·t + p, k) · (x·W1)(k, ·) + b1, 0), the adjacency block being rows 400·t … 400·t + 399 of the
  matrix and the scratch holding x·W1; the h·W2 block is that row times W2. The 25 blocks tile the 10000 rows, so the arrays
  end at h and h·W2 as the specification states them, over whatever arrays the pass is entered with.
-/
import proofs.«179412_g78735340470967_cont_sun_c4_260_3_alg».proof.Proof.PassOneIdeal
import proofs.«179412_g78735340470967_cont_sun_c4_260_3_alg».proof.Proof.PassTwoIdeal
import proofs.«179412_g78735340470967_cont_sun_c4_260_3_alg».proof.Proof.KernelPay
import proofs.«179412_g78735340470967_cont_sun_c4_260_3_alg».proof.Proof.Spec
import Idealize.ShloMosaic.Lib.Pipeline.Value
import Idealize.ShloMosaic.Lib.ValueIdx

set_option maxRecDepth 16384

noncomputable section

namespace Cert.KernelIdeal.FinalValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.PayValue

variable (V : (c : Dev nD) → (b : Ref sig .tc) → Buf (Elt Ideal) ((c : Thread nD τ).loc b))

theorem hz : (![0, 0] : Fin 2 → Nat) = fun _ => 0 := funext fun a => by fin_cases a <;> rfl

/-! ## The first pass: where its blocks sit in the arrays -/

theorem idx0 : ∀ t : Fin cfg0.N,
    win0_0.index t (0 : Fin 2) = 0 ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0
  ∧ win0_6.index t (0 : Fin 2) = t.val ∧ win0_6.index t (1 : Fin 2) = 0 :=
  (by decide +kernel : ∀ t : Fin grid0.N, _)

/-- Row `a` of block `t` is row `400·t + a` of the array. -/
def row0 (t : Fin cfg0.N) (a : Fin 400) : Fin 10000 :=
  ⟨400 * t.val + a.val, by have ht : t.val < 25 := lt_of_lt_of_eq t.isLt (show cfg0.N = 25 from N_0); have ha := a.isLt; omega⟩

theorem blk0_0 (c : Dev nD) (t : Fin cfg0.N) (a : Fin 10000) (b : Fin 128) :
    PassOne.iblk V c 0 t (ix2 a b) = V c main_arg0 (ix2 a b) := by
  show V c main_arg0 (((cfg0.win 0).blk t).view.emb (ix2 a b)) = _
  refine congrArg _ ?_
  obtain ⟨e0, e1, -, -, -, -, -, -, -, -, -, -, -, -⟩ := idx0 t
  funext d; apply Fin.ext
  match d with
  | ⟨0, _⟩ => show win0_0.index t (0 : Fin 2) * 10000 + 1 * a.val = a.val; omega
  | ⟨1, _⟩ => show win0_0.index t (1 : Fin 2) * 128 + 1 * b.val = b.val; omega
theorem blk0_1 (c : Dev nD) (t : Fin cfg0.N) (a : Fin 400) (b : Fin 10000) :
    PassOne.iblk V c 1 t (ix2 a b) = V c main_arg1 (ix2 (row0 t a) b) := by
  show V c main_arg1 (((cfg0.win 1).blk t).view.emb (ix2 a b)) = _
  refine congrArg _ ?_
  obtain ⟨-, -, e0, e1, -, -, -, -, -, -, -, -, -, -⟩ := idx0 t
  funext d; apply Fin.ext
  match d with
  | ⟨0, _⟩ => show win0_1.index t (0 : Fin 2) * 400 + 1 * a.val = 400 * t.val + a.val; omega
  | ⟨1, _⟩ => show win0_1.index t (1 : Fin 2) * 10000 + 1 * b.val = b.val; omega
theorem blk0_2 (c : Dev nD) (t : Fin cfg0.N) (a : Fin 128) (b : Fin 128) :
    PassOne.iblk V c 2 t (ix2 a b) = V c main_arg2 (ix2 a b) := by
  show V c main_arg2 (((cfg0.win 2).blk t).view.emb (ix2 a b)) = _
  refine congrArg _ ?_
  obtain ⟨-, -, -, -, e0, e1, -, -, -, -, -, -, -, -⟩ := idx0 t
  funext d; apply Fin.ext
  match d with
  | ⟨0, _⟩ => show win0_2.index t (0 : Fin 2) * 128 + 1 * a.val = a.val; omega
  | ⟨1, _⟩ => show win0_2.index t (1 : Fin 2) * 128 + 1 * b.val = b.val; omega
theorem blk0_3 (c : Dev nD) (t : Fin cfg0.N) (a : Fin 1) (b : Fin 128) :
    PassOne.iblk V c 3 t (ix2 a b) = V c main_call0_v0 (ix2 a b) := by
  show V c main_call0_v0 (((cfg0.win 3).blk t).view.emb (ix2 a b)) = _
  refine congrArg _ ?_
  obtain ⟨-, -, -, -, -, -, e0, e1, -, -, -, -, -, -⟩ := idx0 t
  funext d; apply Fin.ext
  match d with
  | ⟨0, _⟩ => show win0_3.index t (0 : Fin 2) * 1 + 1 * a.val = a.val; omega
  | ⟨1, _⟩ => show win0_3.index t (1 : Fin 2) * 128 + 1 * b.val = b.val; omega
theorem blk0_4 (c : Dev nD) (t : Fin cfg0.N) (a : Fin 128) (b : Fin 64) :
    PassOne.iblk V c 4 t (ix2 a b) = V c main_arg4 (ix2 a b) := by
  show V c main_arg4 (((cfg0.win 4).blk t).view.emb (ix2 a b)) = _
  refine congrArg _ ?_
  obtain ⟨-, -, -, -, -, -, -, -, e0, e1, -, -, -, -⟩ := idx0 t
  funext d; apply Fin.ext
  match d with
  | ⟨0, _⟩ => show win0_4.index t (0 : Fin 2) * 128 + 1 * a.val = a.val; omega
  | ⟨1, _⟩ => show win0_4.index t (1 : Fin 2) * 64 + 1 * b.val = b.val; omega
theorem emb0_5 (t : Fin cfg0.N) (a : Fin 400) (b : Fin 128) :
    ((cfg0.win 5).blk t).view.emb (ix2 a b) = ix2 (row0 t a) b := by
  obtain ⟨-, -, -, -, -, -, -, -, -, -, e0, e1, -, -⟩ := idx0 t
  funext d; apply Fin.ext
  match d with
  | ⟨0, _⟩ => show win0_5.index t (0 : Fin 2) * 400 + 1 * a.val = 400 * t.val + a.val; omega
  | ⟨1, _⟩ => show win0_5.index t (1 : Fin 2) * 128 + 1 * b.val = b.val; omega
theorem emb0_6 (t : Fin cfg0.N) (a : Fin 400) (b : Fin 64) :
    ((cfg0.win 6).blk t).view.emb (ix2 a b) = ix2 (row0 t a) b := by
  obtain ⟨-, -, -, -, -, -, -, -, -, -, -, -, e0, e1⟩ := idx0 t
  funext d; apply Fin.ext
  match d with
  | ⟨0, _⟩ => show win0_6.index t (0 : Fin 2) * 400 + 1 * a.val = 400 * t.val + a.val; omega
  | ⟨1, _⟩ => show win0_6.index t (1 : Fin 2) * 64 + 1 * b.val = b.val; omega

/-- The scratch after any point, read at an index: x·W1. -/
theorem S1_apply (c : Dev nD) (k : Fin 10000) (q : Fin 128) :
    PassOne.S1 V c (ix2 k q) = Cert.Spec.hS (V c main_arg0) (V c main_arg2) k q := by
  unfold PassOne.S1 PassOne.s1
  rw [View.canon_unit_zero hz]
  simp only [View.ld_unit_zero (S := S10000x128) hz, View.ld_unit_zero (S := S128x128) hz]
  refine (pay1_apply _ _ k q).trans ?_
  unfold Cert.Spec.hS
  refine Finset.sum_congr rfl fun l _ => ?_
  rw [blk0_0 V c PassOne.t0 k l, blk0_2 V c PassOne.t0 l q]

/-- The h payload of point `t` at row `p` of its block is h at row `400·t + p` of the array. -/
theorem hAt (c : Dev nD) (b1 : (⟨1, ![128]⟩ : Shape).Idx → EReal)
    (hb : ∀ q : Fin 128, V c main_call0_v0 (ix2 0 q) = b1 (ix1 q)) (t : Fin cfg0.N) (p : Fin 400) (q : Fin 128) :
    k0_pay2 (F := Ideal) (PassOne.iblk V c 1 t) (PassOne.S1 V c) (PassOne.iblk V c 3 t) (ix2 p q)
      = Cert.Spec.hH (V c main_arg0) (V c main_arg1) (V c main_arg2) b1 (row0 t p) q := by
  refine (pay2_apply _ _ _ p q).trans ?_
  unfold Cert.Spec.hH
  rw [blk0_3 V c t 0 q, hb q]
  refine congrArg (fun s => max (s + b1 (ix1 q)) 0) (Finset.sum_congr rfl fun k _ => ?_)
  rw [blk0_1 V c t p k, S1_apply V c k q]

/-- The h array as one function of the arrays the first pass is entered with (`b1` the bias before its reshape to a row). -/
def GH (c : Dev nD) (b1 : (⟨1, ![128]⟩ : Shape).Idx → EReal) : S10000x128.Idx → EReal :=
  fun i => Cert.Spec.hH (V c main_arg0) (V c main_arg1) (V c main_arg2) b1 ⟨(i 0).val, (i 0).isLt⟩ ⟨(i 1).val, (i 1).isLt⟩

/-- What point `t` writes back into the h array is block `t` of that function. -/
theorem flushedH (c : Dev nD) (b1 : (⟨1, ![128]⟩ : Shape).Idx → EReal)
    (hb : ∀ q : Fin 128, V c main_call0_v0 (ix2 0 q) = b1 (ix1 q)) (t : Fin cfg0.N) :
    (PassOne.dat V c).flushed 5 t = ((cfg0.win 5).blk t).view.read (Elt Ideal) (GH V c b1) := by
  show (cfg0.win 5).cut (grid0.coords t) ((PassOne.dat V c).after 5 t) = _
  rw [PassOne.after5]
  unfold PassOne.outH
  rw [View.canon_unit_zero hz]
  simp only [View.ld_unit_zero (S := S400x10000) hz, View.ld_unit_zero (S := S10000x128) hz, View.ld_unit_zero (S := S1x128) hz]
  show (k0_pay2 (F := Ideal) (PassOne.iblk V c 1 t) (PassOne.S1 V c) (PassOne.iblk V c 3 t) : S400x128.Idx → EReal)
    = fun j => GH V c b1 (((cfg0.win 5).blk t).view.emb j)
  funext j
  obtain ⟨p, q, rfl⟩ : ∃ (p : Fin 400) (q : Fin 128), j = ix2 p q := ⟨j 0, j 1, eq_ix2 j⟩
  rw [emb0_5 t p q]
  exact hAt V c b1 hb t p q

theorem mem_blk0_5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v0_1).slice (win0_5.rect t)).set ↔ _
  rw [View.set_slice_whole, Rect.mem_set_unit]
  exact Iff.rfl
/-- Every row lies in the block of the point `row / 400`. -/
theorem cover0_5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  refine ⟨⟨(i 0).val / 400, lt_of_lt_of_eq (by omega : (i 0).val / 400 < 25) (show cfg0.N = 25 from N_0).symm⟩, flush0_5 _, ?_⟩
  rw [mem_blk0_5]
  obtain ⟨-, -, -, -, -, -, -, -, -, -, e0, e1, -, -⟩ := idx0 (⟨(i 0).val / 400, lt_of_lt_of_eq (by omega : (i 0).val / 400 < 25) (show cfg0.N = 25 from N_0).symm⟩ : Fin cfg0.N)
  intro a
  match a with
  | ⟨0, _⟩ => show win0_5.index _ (0 : Fin 2) * 400 ≤ (i 0).val ∧ (i 0).val < win0_5.index _ (0 : Fin 2) * 400 + 400; rw [e0]; show (i 0).val / 400 * 400 ≤ (i 0).val ∧ (i 0).val < (i 0).val / 400 * 400 + 400; omega
  | ⟨1, _⟩ => show win0_5.index _ (1 : Fin 2) * 128 ≤ (i 1).val ∧ (i 1).val < win0_5.index _ (1 : Fin 2) * 128 + 128; rw [e1]; omega

/-- The h array after the first pass. -/
theorem finalH (c : Dev nD) (b1 : (⟨1, ![128]⟩ : Shape).Idx → EReal)
    (hb : ∀ q : Fin 128, V c main_call0_v0 (ix2 0 q) = b1 (ix1 q)) :
    (PassOne.dat V c).arrAt 5 cfg0.N = GH V c b1 :=
  (PassOne.dat V c).arrAt_eq_of_cover 5 (GH V c b1) (fun t _ => flushedH V c b1 hb t) cover0_5

/-- The h·W2 array as one function of the arrays the first pass is entered with. -/
def GP (c : Dev nD) (b1 : (⟨1, ![128]⟩ : Shape).Idx → EReal) : S10000x64.Idx → EReal :=
  fun i => Cert.Spec.hP (V c main_arg0) (V c main_arg1) (V c main_arg2) b1 (V c main_arg4) ⟨(i 0).val, (i 0).isLt⟩ ⟨(i 1).val, (i 1).isLt⟩

/-- What point `t` writes back into the h·W2 array is block `t` of that function. -/
theorem flushedP (c : Dev nD) (b1 : (⟨1, ![128]⟩ : Shape).Idx → EReal)
    (hb : ∀ q : Fin 128, V c main_call0_v0 (ix2 0 q) = b1 (ix1 q)) (t : Fin cfg0.N) :
    (PassOne.dat V c).flushed 6 t = ((cfg0.win 6).blk t).view.read (Elt Ideal) (GP V c b1) := by
  show (cfg0.win 6).cut (grid0.coords t) ((PassOne.dat V c).after 6 t) = _
  rw [PassOne.after6]
  unfold PassOne.outP
  rw [View.canon_unit_zero hz]
  simp only [View.ld_unit_zero (S := S400x10000) hz, View.ld_unit_zero (S := S10000x128) hz, View.ld_unit_zero (S := S1x128) hz, View.ld_unit_zero (S := S128x64) hz]
  show (k0_pay3 (F := Ideal) (PassOne.iblk V c 1 t) (PassOne.S1 V c) (PassOne.iblk V c 3 t) (PassOne.iblk V c 4 t) : S400x64.Idx → EReal)
    = fun j => GP V c b1 (((cfg0.win 6).blk t).view.emb j)
  funext j
  obtain ⟨p, q, rfl⟩ : ∃ (p : Fin 400) (q : Fin 64), j = ix2 p q := ⟨j 0, j 1, eq_ix2 j⟩
  refine (pay3_apply _ _ _ _ p q).trans ?_
  rw [emb0_6 t p q]
  show _ = Cert.Spec.hP (V c main_arg0) (V c main_arg1) (V c main_arg2) b1 (V c main_arg4) (row0 t p) q
  unfold Cert.Spec.hP
  refine Finset.sum_congr rfl fun k _ => ?_
  rw [hAt V c b1 hb t p k, blk0_4 V c t k q]

theorem mem_blk0_6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_call0_v1_1).slice (win0_6.rect t)).set ↔ _
  rw [View.set_slice_whole, Rect.mem_set_unit]
  exact Iff.rfl
/-- Every row lies in the block of the point `row / 400`. -/
theorem cover0_6 (i : S10000x64.Idx) : ∃ t : Fin cfg0.N, (cfg0.win 6).flush t = true ∧ i ∈ ((cfg0.win 6).blk t).view.set := by
  have hi0 : (i 0).val < 10000 := (i 0).isLt
  have hi1 : (i 1).val < 64 := (i 1).isLt
  refine ⟨⟨(i 0).val / 400, lt_of_lt_of_eq (by omega : (i 0).val / 400 < 25) (show cfg0.N = 25 from N_0).symm⟩, flush0_6 _, ?_⟩
  rw [mem_blk0_6]
  obtain ⟨-, -, -, -, -, -, -, -, -, -, -, -, e0, e1⟩ := idx0 (⟨(i 0).val / 400, lt_of_lt_of_eq (by omega : (i 0).val / 400 < 25) (show cfg0.N = 25 from N_0).symm⟩ : Fin cfg0.N)
  intro a
  match a with
  | ⟨0, _⟩ => show win0_6.index _ (0 : Fin 2) * 400 ≤ (i 0).val ∧ (i 0).val < win0_6.index _ (0 : Fin 2) * 400 + 400; rw [e0]; show (i 0).val / 400 * 400 ≤ (i 0).val ∧ (i 0).val < (i 0).val / 400 * 400 + 400; omega
  | ⟨1, _⟩ => show win0_6.index _ (1 : Fin 2) * 64 ≤ (i 1).val ∧ (i 1).val < win0_6.index _ (1 : Fin 2) * 64 + 64; rw [e1]; omega

/-- The h·W2 array after the first pass. -/
theorem finalP (c : Dev nD) (b1 : (⟨1, ![128]⟩ : Shape).Idx → EReal)
    (hb : ∀ q : Fin 128, V c main_call0_v0 (ix2 0 q) = b1 (ix1 q)) :
    (PassOne.dat V c).arrAt 6 cfg0.N = GP V c b1 :=
  (PassOne.dat V c).arrAt_eq_of_cover 6 (GP V c b1) (fun t _ => flushedP V c b1 hb t) cover0_6

end Cert.KernelIdeal.FinalValue

end
-- ==== Proof.BlocksTwo.lean ====
/-
  The second pass's output arrays as whole-array functions, at the extended reals. Block `t` of the z array is what point `t` stored:
  row `p` of it is ∑ₖ adj(400·t + p, k) · (h·W2)(k, ·) + b2, and the same row of the log-softmax array is the row log-softmax of
  that row. The 25 blocks tile the 10000 rows. Stated over whatever arrays the pass is entered with, for any h·W2 they hold.
-/
import proofs.«179412_g78735340470967_cont_sun_c4_260_3_alg».proof.Proof.PassOneIdeal
import proofs.«179412_g78735340470967_cont_sun_c4_260_3_alg».proof.Proof.PassTwoIdeal
import proofs.«179412_g78735340470967_cont_sun_c4_260_3_alg».proof.Proof.KernelPay
import proofs.«179412_g78735340470967_cont_sun_c4_260_3_alg».proof.Proof.Spec
import Idealize.ShloMosaic.Lib.Pipeline.Value
import Idealize.ShloMosaic.Lib.ValueIdx

set_option maxRecDepth 16384

noncomputable section

namespace Cert.KernelIdeal.FinalValue2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.PayValue

variable (V : (c : Dev nD) → (b : Ref sig .tc) → Buf (Elt Ideal) ((c : Thread nD τ).loc b))

theorem hz' : (![0, 0] : Fin 2 → Nat) = fun _ => 0 := funext fun a => by fin_cases a <;> rfl

theorem idx1 : ∀ t : Fin cfg1.N,
    win1_0.index t (0 : Fin 2) = t.val ∧ win1_0.index t (1 : Fin 2) = 0
  ∧ win1_1.index t (0 : Fin 2) = 0 ∧ win1_1.index t (1 : Fin 2) = 0
  ∧ win1_2.index t (0 : Fin 2) = 0 ∧ win1_2.index t (1 : Fin 2) = 0
  ∧ win1_3.index t (0 : Fin 2) = t.val ∧ win1_3.index t (1 : Fin 2) = 0
  ∧ win1_4.index t (0 : Fin 2) = t.val ∧ win1_4.index t (1 : Fin 2) = 0 :=
  (by decide +kernel : ∀ t : Fin grid1.N, _)

/-- Row `a` of block `t` is row `400·t + a` of the array. -/
def row1 (t : Fin cfg1.N) (a : Fin 400) : Fin 10000 :=
  ⟨400 * t.val + a.val, by have ht : t.val < 25 := lt_of_lt_of_eq t.isLt (show cfg1.N = 25 from N_1); have ha := a.isLt; omega⟩

theorem blk1_0 (c : Dev nD) (t : Fin cfg1.N) (a : Fin 400) (b : Fin 10000) :
    PassTwo.iblk V c 0 t (ix2 a b) = V c main_arg1 (ix2 (row1 t a) b) := by
  show V c main_arg1 (((cfg1.win 0).blk t).view.emb (ix2 a b)) = _
  refine congrArg _ ?_
  obtain ⟨e0, e1, -, -, -, -, -, -, -, -⟩ := idx1 t
  funext d; apply Fin.ext
  match d with
  | ⟨0, _⟩ => show win1_0.index t (0 : Fin 2) * 400 + 1 * a.val = 400 * t.val + a.val; omega
  | ⟨1, _⟩ => show win1_0.index t (1 : Fin 2) * 10000 + 1 * b.val = b.val; omega
theorem blk1_1 (c : Dev nD) (t : Fin cfg1.N) (a : Fin 10000) (b : Fin 64) :
    PassTwo.iblk V c 1 t (ix2 a b) = V c main_call0_v1_1 (ix2 a b) := by
  show V c main_call0_v1_1 (((cfg1.win 1).blk t).view.emb (ix2 a b)) = _
  refine congrArg _ ?_
  obtain ⟨-, -, e0, e1, -, -, -, -, -, -⟩ := idx1 t
  funext d; apply Fin.ext
  match d with
  | ⟨0, _⟩ => show win1_1.index t (0 : Fin 2) * 10000 + 1 * a.val = a.val; omega
  | ⟨1, _⟩ => show win1_1.index t (1 : Fin 2) * 64 + 1 * b.val = b.val; omega
theorem blk1_2 (c : Dev nD) (t : Fin cfg1.N) (a : Fin 1) (b : Fin 64) :
    PassTwo.iblk V c 2 t (ix2 a b) = V c main_call0_v2 (ix2 a b) := by
  show V c main_call0_v2 (((cfg1.win 2).blk t).view.emb (ix2 a b)) = _
  refine congrArg _ ?_
  obtain ⟨-, -, -, -, e0, e1, -, -, -, -⟩ := idx1 t
  funext d; apply Fin.ext
  match d with
  | ⟨0, _⟩ => show win1_2.index t (0 : Fin 2) * 1 + 1 * a.val = a.val; omega
  | ⟨1, _⟩ => show win1_2.index t (1 : Fin 2) * 64 + 1 * b.val = b.val; omega
theorem emb1_3 (t : Fin cfg1.N) (a : Fin 400) (b : Fin 64) :
    ((cfg1.win 3).blk t).view.emb (ix2 a b) = ix2 (row1 t a) b := by
  obtain ⟨-, -, -, -, -, -, e0, e1, -, -⟩ := idx1 t
  funext d; apply Fin.ext
  match d with
  | ⟨0, _⟩ => show win1_3.index t (0 : Fin 2) * 400 + 1 * a.val = 400 * t.val + a.val; omega
  | ⟨1, _⟩ => show win1_3.index t (1 : Fin 2) * 64 + 1 * b.val = b.val; omega
theorem emb1_4 (t : Fin cfg1.N) (a : Fin 400) (b : Fin 64) :
    ((cfg1.win 4).blk t).view.emb (ix2 a b) = ix2 (row1 t a) b := by
  obtain ⟨-, -, -, -, -, -, -, -, e0, e1⟩ := idx1 t
  funext d; apply Fin.ext
  match d with
  | ⟨0, _⟩ => show win1_4.index t (0 : Fin 2) * 400 + 1 * a.val = 400 * t.val + a.val; omega
  | ⟨1, _⟩ => show win1_4.index t (1 : Fin 2) * 64 + 1 * b.val = b.val; omega

variable (x : (⟨2, ![10000, 128]⟩ : Shape).Idx → EReal) (adj : (⟨2, ![10000, 10000]⟩ : Shape).Idx → EReal)
  (W1 : (⟨2, ![128, 128]⟩ : Shape).Idx → EReal) (b1 : (⟨1, ![128]⟩ : Shape).Idx → EReal)
  (W2 : (⟨2, ![128, 64]⟩ : Shape).Idx → EReal) (b2 : (⟨1, ![64]⟩ : Shape).Idx → EReal)

/-- The z payload of point `t` at row `p` of its block is z at row `400·t + p` of the array, when the pass is entered with the
    adjacency matrix, with h·W2 in its second operand and with the second bias as a row. -/
theorem zAt (c : Dev nD)
    (hadj : ∀ (r k : Fin 10000), V c main_arg1 (ix2 r k) = adj (ix2 r k))
    (hp : ∀ (k : Fin 10000) (j : Fin 64), V c main_call0_v1_1 (ix2 k j) = Cert.Spec.hP x adj W1 b1 W2 k j)
    (hb : ∀ q : Fin 64, V c main_call0_v2 (ix2 0 q) = b2 (ix1 q)) (t : Fin cfg1.N) (p : Fin 400) (q : Fin 64) :
    k1_pay1 (F := Ideal) (PassTwo.iblk V c 0 t) (PassTwo.iblk V c 1 t) (PassTwo.iblk V c 2 t) (ix2 p q)
      = Cert.Spec.hZ x adj W1 b1 W2 b2 (row1 t p) q := by
  refine (zpay_apply _ _ _ p q).trans ?_
  unfold Cert.Spec.hZ
  rw [blk1_2 V c t 0 q, hb q]
  refine congrArg (fun s => s + b2 (ix1 q)) (Finset.sum_congr rfl fun k _ => ?_)
  rw [blk1_0 V c t p k, blk1_1 V c t k q, hadj, hp]

/-- The z array and the log-softmax array as functions of the six argument arrays. -/
def GZ : S10000x64.Idx → EReal :=
  fun i => Cert.Spec.hZ x adj W1 b1 W2 b2 ⟨(i 0).val, (i 0).isLt⟩ ⟨(i 1).val, (i 1).isLt⟩
def GLZ : S10000x64.Idx → EReal :=
  fun i => Cert.Spec.LS (fun j' => Cert.Spec.hZ x adj W1 b1 W2 b2 ⟨(i 0).val, (i 0).isLt⟩ j') ⟨(i 1).val, (i 1).isLt⟩

theorem flushedZ (c : Dev nD)
    (hadj : ∀ (r k : Fin 10000), V c main_arg1 (ix2 r k) = adj (ix2 r k))
    (hp : ∀ (k : Fin 10000) (j : Fin 64), V c main_call0_v1_1 (ix2 k j) = Cert.Spec.hP x adj W1 b1 W2 k j)
    (hb : ∀ q : Fin 64, V c main_call0_v2 (ix2 0 q) = b2 (ix1 q)) (t : Fin cfg1.N) :
    (PassTwo.dat V c).flushed 4 t = ((cfg1.win 4).blk t).view.read (Elt Ideal) (GZ x adj W1 b1 W2 b2) := by
  show (cfg1.win 4).cut (grid1.coords t) ((PassTwo.dat V c).after 4 t) = _
  rw [PassTwo.after4]
  unfold PassTwo.outZ
  rw [View.canon_unit_zero hz']
  simp only [View.ld_unit_zero (S := S400x10000) hz', View.ld_unit_zero (S := S10000x64) hz', View.ld_unit_zero (S := S1x64) hz']
  show (k1_pay1 (F := Ideal) (PassTwo.iblk V c 0 t) (PassTwo.iblk V c 1 t) (PassTwo.iblk V c 2 t) : S400x64.Idx → EReal)
    = fun j => GZ x adj W1 b1 W2 b2 (((cfg1.win 4).blk t).view.emb j)
  funext j
  obtain ⟨p, q, rfl⟩ : ∃ (p : Fin 400) (q : Fin 64), j = ix2 p q := ⟨j 0, j 1, eq_ix2 j⟩
  rw [emb1_4 t p q]
  exact zAt V x adj W1 b1 W2 b2 c hadj hp hb t p q

theorem flushedLZ (c : Dev nD)
    (hadj : ∀ (r k : Fin 10000), V c main_arg1 (ix2 r k) = adj (ix2 r k))
    (hp : ∀ (k : Fin 10000) (j : Fin 64), V c main_call0_v1_1 (ix2 k j) = Cert.Spec.hP x adj W1 b1 W2 k j)
    (hb : ∀ q : Fin 64, V c main_call0_v2 (ix2 0 q) = b2 (ix1 q)) (t : Fin cfg1.N) :
    (PassTwo.dat V c).flushed 3 t = ((cfg1.win 3).blk t).view.read (Elt Ideal) (GLZ x adj W1 b1 W2 b2) := by
  show (cfg1.win 3).cut (grid1.coords t) ((PassTwo.dat V c).after 3 t) = _
  rw [PassTwo.after3]
  unfold PassTwo.outLz
  rw [View.canon_unit_zero hz']
  simp only [View.ld_unit_zero (S := S400x10000) hz', View.ld_unit_zero (S := S10000x64) hz', View.ld_unit_zero (S := S1x64) hz']
  show (k1_pay2 (F := Ideal) (PassTwo.iblk V c 0 t) (PassTwo.iblk V c 1 t) (PassTwo.iblk V c 2 t) : S400x64.Idx → EReal)
    = fun j => GLZ x adj W1 b1 W2 b2 (((cfg1.win 3).blk t).view.emb j)
  funext j
  obtain ⟨p, q, rfl⟩ : ∃ (p : Fin 400) (q : Fin 64), j = ix2 p q := ⟨j 0, j 1, eq_ix2 j⟩
  refine (lzpay_apply _ _ _ p q).trans ?_
  rw [emb1_3 t p q]
  show _ = Cert.Spec.LS (fun j' => Cert.Spec.hZ x adj W1 b1 W2 b2 (row1 t p) j') q
  exact congrArg (fun z => Cert.Spec.LS z q) (funext fun j' => zAt V x adj W1 b1 W2 b2 c hadj hp hb t p j')

theorem mem_blk1_3 (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v0_0).slice (win1_3.rect t)).set ↔ _
  rw [View.set_slice_whole, Rect.mem_set_unit]
  exact Iff.rfl
theorem mem_blk1_4 (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v0_2).slice (win1_4.rect t)).set ↔ _
  rw [View.set_slice_whole, Rect.mem_set_unit]
  exact Iff.rfl
/-- Every row lies in the block of the point `row / 400`. -/
theorem cover1_3 (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  refine ⟨⟨(i 0).val / 400, lt_of_lt_of_eq (by omega : (i 0).val / 400 < 25) (show cfg1.N = 25 from N_1).symm⟩, flush1_3 _, ?_⟩
  rw [mem_blk1_3]
  obtain ⟨-, -, -, -, -, -, e0, e1, -, -⟩ := idx1 (⟨(i 0).val / 400, lt_of_lt_of_eq (by omega : (i 0).val / 400 < 25) (show cfg1.N = 25 from N_1).symm⟩ : Fin cfg1.N)
  intro a
  match a with
  | ⟨0, _⟩ => show win1_3.index _ (0 : Fin 2) * 400 ≤ (i 0).val ∧ (i 0).val < win1_3.index _ (0 : Fin 2) * 400 + 400; rw [e0]; show (i 0).val / 400 * 400 ≤ (i 0).val ∧ (i 0).val < (i 0).val / 400 * 400 + 400; omega
  | ⟨1, _⟩ => show win1_3.index _ (1 : Fin 2) * 64 ≤ (i 1).val ∧ (i 1).val < win1_3.index _ (1 : Fin 2) * 64 + 64; rw [e1]; omega
/-- Every row lies in the block of the point `row / 400`. -/
theorem cover1_4 (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  refine ⟨⟨(i 0).val / 400, lt_of_lt_of_eq (by omega : (i 0).val / 400 < 25) (show cfg1.N = 25 from N_1).symm⟩, flush1_4 _, ?_⟩
  rw [mem_blk1_4]
  obtain ⟨-, -, -, -, -, -, -, -, e0, e1⟩ := idx1 (⟨(i 0).val / 400, lt_of_lt_of_eq (by omega : (i 0).val / 400 < 25) (show cfg1.N = 25 from N_1).symm⟩ : Fin cfg1.N)
  intro a
  match a with
  | ⟨0, _⟩ => show win1_4.index _ (0 : Fin 2) * 400 ≤ (i 0).val ∧ (i 0).val < win1_4.index _ (0 : Fin 2) * 400 + 400; rw [e0]; show (i 0).val / 400 * 400 ≤ (i 0).val ∧ (i 0).val < (i 0).val / 400 * 400 + 400; omega
  | ⟨1, _⟩ => show win1_4.index _ (1 : Fin 2) * 64 ≤ (i 1).val ∧ (i 1).val < win1_4.index _ (1 : Fin 2) * 64 + 64; rw [e1]; omega

theorem finalZ (c : Dev nD)
    (hadj : ∀ (r k : Fin 10000), V c main_arg1 (ix2 r k) = adj (ix2 r k))
    (hp : ∀ (k : Fin 10000) (j : Fin 64), V c main_call0_v1_1 (ix2 k j) = Cert.Spec.hP x adj W1 b1 W2 k j)
    (hb : ∀ q : Fin 64, V c main_call0_v2 (ix2 0 q) = b2 (ix1 q)) :
    (PassTwo.dat V c).arrAt 4 cfg1.N = GZ x adj W1 b1 W2 b2 :=
  (PassTwo.dat V c).arrAt_eq_of_cover 4 (GZ x adj W1 b1 W2 b2) (fun t _ => flushedZ V x adj W1 b1 W2 b2 c hadj hp hb t) cover1_4
theorem finalLZ (c : Dev nD)
    (hadj : ∀ (r k : Fin 10000), V c main_arg1 (ix2 r k) = adj (ix2 r k))
    (hp : ∀ (k : Fin 10000) (j : Fin 64), V c main_call0_v1_1 (ix2 k j) = Cert.Spec.hP x adj W1 b1 W2 k j)
    (hb : ∀ q : Fin 64, V c main_call0_v2 (ix2 0 q) = b2 (ix1 q)) :
    (PassTwo.dat V c).arrAt 3 cfg1.N = GLZ x adj W1 b1 W2 b2 :=
  (PassTwo.dat V c).arrAt_eq_of_cover 3 (GLZ x adj W1 b1 W2 b2) (fun t _ => flushedLZ V x adj W1 b1 W2 b2 c hadj hp hb t) cover1_3

end Cert.KernelIdeal.FinalValue2

end
-- ==== Proof.KernelValue.lean ====
/-
  The idealized kernel's run, read as values: over the extended reals the three result arrays end at
  h = max(adj·(x·W1) + b1, 0), z = adj·(h·W2) + b2 and the row log-softmax of z, as functions of the six argument arrays at
  launch. The first pass is entered with the launch arrays and the first bias re-laid as a row; the second with the adjacency
  matrix, with h·W2 as the first pass's write-backs left it, and with the second bias re-laid as a row.
-/
import proofs.«179412_g78735340470967_cont_sun_c4_260_3_alg».proof.Proof.WholeRunIdeal
import proofs.«179412_g78735340470967_cont_sun_c4_260_3_alg».proof.Proof.BlocksOne
import proofs.«179412_g78735340470967_cont_sun_c4_260_3_alg».proof.Proof.BlocksTwo
import proofs.«179412_g78735340470967_cont_sun_c4_260_3_alg».proof.Proof.LibBroadcast

set_option maxRecDepth 16384

noncomputable section

namespace Cert.KernelIdeal.KernelValue

open Cert.KernelIdeal Cert.KernelIdeal.Gen Cert.KernelIdeal.WholeRun
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## What the first pass is entered with -/

theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg0) = W0 m ρ c (Proc.devRef .tc main_arg0)).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg1) = W0 m ρ c (Proc.devRef .tc main_arg1)).trans rfl
theorem V1_main_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg2) = W0 m ρ c (Proc.devRef .tc main_arg2)).trans rfl
theorem V1_main_arg4 (c : Dev nD) : V1 m ρ c main_arg4 = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg4) = W0 m ρ c (Proc.devRef .tc main_arg4)).trans rfl
theorem V1_main_arg5 (c : Dev nD) : V1 m ρ c main_arg5 = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg5) = W0 m ρ c (Proc.devRef .tc main_arg5)).trans rfl

/-- The first bias re-laid as a row. -/
theorem V1_bias (c : Dev nD) (q : Fin 128) :
    V1 m ρ c main_call0_v0 (ix2 0 q) = m ((c : Thread nD τ).loc main_arg3) (ix1 q) := by
  have e : (V1 m ρ c main_call0_v0 : S1x128.Idx → EReal) = shapeCast S1x128 (m ((c : Thread nD τ).loc main_arg3)) shapeCasts_S128_S1x128 := by
    show StableHlo.after hostOps0 (W0 m ρ c) (Proc.devRef .tc main_call0_v0) = _
    after_results; rfl
  rw [e]
  exact Cert.Layout.shapeCast_row_apply _ _ q

/-! ## What the second pass is entered with -/

theorem V3_adj (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((PassOne.dat (V1 m ρ) c).arrAt_in 1 rfl _).trans (PassOne.A_eq (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Its second operand is the h·W2 array as the first pass left it. -/
theorem V3_p (c : Dev nD) : V3 m ρ c main_call0_v1_1 = (PassOne.dat (V1 m ρ) c).arrAt 6 cfg0.N :=
  calc W3 m ρ c (Proc.devRef .tc main_call0_v1_1)
    _ = W2 m ρ c (Proc.devRef .tc main_call0_v1_1) := StableHlo.after_of_forall_not_mem (b := Proc.devRef .tc main_call0_v1_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (PassOne.dat (V1 m ρ) c).arrAt 6 cfg0.N := W2_arr m ρ c 6

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The second bias re-laid as a row. -/
theorem V3_bias (c : Dev nD) (q : Fin 64) :
    V3 m ρ c main_call0_v2 (ix2 0 q) = m ((c : Thread nD τ).loc main_arg5) (ix1 q) := by
  have e : (V3 m ρ c main_call0_v2 : S1x64.Idx → EReal) = shapeCast S1x64 (m ((c : Thread nD τ).loc main_arg5)) shapeCasts_S64_S1x64 := by
    show StableHlo.after hostOps1 (W2 m ρ c) (Proc.devRef .tc main_call0_v2) = _
    after_results
    rw [W2_main_arg5 m ρ c]
    rfl
  rw [e]
  exact Cert.Layout.shapeCast_row_apply _ _ q

/-! ## The three results -/

/-- h as a function of the argument arrays: the specification's `hH`, index by index. -/
def resH (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal) : S10000x128.Idx → EReal :=
  fun i => Cert.Spec.hH x adj W1 b1 ⟨(i 0).val, (i 0).isLt⟩ ⟨(i 1).val, (i 1).isLt⟩

theorem final_h (c : Dev nD) :
    (PassOne.dat (V1 m ρ) c).arrAt 5 cfg0.N
      = resH (m ((c : Thread nD τ).loc main_arg0)) (m ((c : Thread nD τ).loc main_arg1)) (m ((c : Thread nD τ).loc main_arg2)) (m ((c : Thread nD τ).loc main_arg3)) := by
  rw [FinalValue.finalH (V1 m ρ) c (m ((c : Thread nD τ).loc main_arg3)) (V1_bias m ρ c)]
  unfold FinalValue.GH resH
  rw [V1_main_arg0 m ρ c, V1_main_arg1 m ρ c, V1_main_arg2 m ρ c]

/-- What the second pass finds in its second operand, index by index: the specification's `hP`. -/
theorem entry_p (c : Dev nD) (k : Fin 10000) (j : Fin 64) :
    V3 m ρ c main_call0_v1_1 (ix2 k j)
      = Cert.Spec.hP (m ((c : Thread nD τ).loc main_arg0)) (m ((c : Thread nD τ).loc main_arg1)) (m ((c : Thread nD τ).loc main_arg2)) (m ((c : Thread nD τ).loc main_arg3)) (m ((c : Thread nD τ).loc main_arg4)) k j := by
  rw [V3_p m ρ c, FinalValue.finalP (V1 m ρ) c (m ((c : Thread nD τ).loc main_arg3)) (V1_bias m ρ c)]
  unfold FinalValue.GP
  rw [V1_main_arg0 m ρ c, V1_main_arg1 m ρ c, V1_main_arg2 m ρ c, V1_main_arg4 m ρ c]

theorem final_z (c : Dev nD) :
    (PassTwo.dat (V3 m ρ) c).arrAt 4 cfg1.N
      = FinalValue2.GZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  FinalValue2.finalZ (V3 m ρ) _ _ _ _ _ _ c (fun r k => by rw [V3_adj m ρ c]) (entry_p m ρ c) (V3_bias m ρ c)

theorem final_lz (c : Dev nD) :
    (PassTwo.dat (V3 m ρ) c).arrAt 3 cfg1.N
      = FinalValue2.GLZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  FinalValue2.finalLZ (V3 m ρ) _ _ _ _ _ _ c (fun r k => by rw [V3_adj m ρ c]) (entry_p m ρ c) (V3_bias m ρ c)

/-- THE RUN, READ: every weakly fair execution ends with the three results at those functions of the launch arrays and the
    six arguments as launched. -/
theorem run : θ_run defs (onTc (τ := τ) (main (F := Ideal))) ⟨m, fun _ => 0, ρ⟩ (fun r => ∀ c : Dev nD,
      r.2.mem ((c.tc : Thread nD τ).loc main_v0_0) = FinalValue2.GLZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_1) = resH (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_2) = FinalValue2.GZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final_lz m ρ c), (h c).2.1.trans (final_h m ρ c), (h c).2.2.1.trans (final_z m ρ c), (h c).2.2.2⟩)
    (WholeRun.run_main (F := Ideal) m ρ)

end Cert.KernelIdeal.KernelValue

end
-- ==== Proof.RefReadBack.lean ====
/-
  The reference's log-softmax result, read back off its line of operations without ever comparing the whole composed term
  with itself. The line is the thirteen operations that end at the output layer z, then the fifteen of the row log-softmax;
  what the second part leaves at its result is one function (`lsmOf`) of what the first left at the output layer's buffer.
  The log-softmax's operations move contents to and from their references' own types; those moves are identities, erased
  here by rewriting, so that the last comparison is between two spellings of the same term.
-/
import proofs.«179412_g78735340470967_cont_sun_c4_260_3_alg».proof.Proof.Gen.ReferenceIdeal
import Idealize.ShloMosaic.Lib.StableHlo.Run

noncomputable section

namespace Cert.ReferenceIdeal.ReadBack

open Cert.ReferenceIdeal Cert.ReferenceIdeal.Gen Idealize.ShloMosaic Idealize.ShloMosaic.TcCoe Idealize.SL.Sem Idealize.ShloMosaic.StableHlo

variable {F : FTy → Type} [FloatOps F]

/-! ### The read-back of the log-softmax result, in two steps

The line is the thirteen operations that end at the output layer, then the fifteen of the row log-softmax.  What the
second part leaves at its result is a function of what the first left at the output layer's buffer; read that way no
step compares the whole composed term with itself. -/

/-- The operations up to the output layer. -/
abbrev opsPre : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x00000000#32),
    unary main_cst main_v5 (broadcastInDim S10000x128 ![] bcast_S_S10000x128 : (⟨S_, .f32⟩ : BufTy).Contents (Elt F) → (⟨S10000x128, .f32⟩ : BufTy).Contents (Elt F)),
    binary main_v4 main_v5 main_v6 (maximumf : (⟨S10000x128, .f32⟩ : BufTy).Contents (Elt F) → (⟨S10000x128, .f32⟩ : BufTy).Contents (Elt F) → (⟨S10000x128, .f32⟩ : BufTy).Contents (Elt F)),
    binary main_v6 main_arg4 main_v7 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v7 main_v8 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v9 (broadcastInDim S1x64 ![1] bcast_S64_S1x64_1 : (⟨S64, .f32⟩ : BufTy).Contents (Elt F) → (⟨S1x64, .f32⟩ : BufTy).Contents (Elt F)),
    unary main_v9 main_v10 (broadcastInDim S10000x64 ![0, 1] bcast_S1x64_S10000x64_0_1 : (⟨S1x64, .f32⟩ : BufTy).Contents (Elt F) → (⟨S10000x64, .f32⟩ : BufTy).Contents (Elt F)),
    binary main_v8 main_v10 main_v11 (addf : (⟨S10000x64, .f32⟩ : BufTy).Contents (Elt F) → (⟨S10000x64, .f32⟩ : BufTy).Contents (Elt F) → (⟨S10000x64, .f32⟩ : BufTy).Contents (Elt F)) ]

/-- The operations of the row log-softmax. -/
abbrev opsTail : List (HloOp τ sig (Elt F)) :=
  [ TRef.nullary (TRef.of (T := ⟨S_, .f32⟩) main_call0_cst) (constant S_ .f32 0xFF800000#32),
    TRef.binary (TRef.of (T := ⟨S10000x64, .f32⟩) main_v11) (TRef.of (T := ⟨S_, .f32⟩) main_call0_cst) (TRef.of (T := ⟨S10000, .f32⟩) main_call0_v0) (fun x v => Host.reduce FloatOps.maximumf x v reducesTo_S10000x64_S10000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S10000, .f32⟩) main_call0_v1) (broadcastInDim S10000 ![] bcast_S_S10000),
    TRef.binary (TRef.of (T := ⟨S10000, .f32⟩) main_call0_v1) (TRef.of (T := ⟨S10000, .f32⟩) main_call0_v0) (TRef.of (T := ⟨S10000, .f32⟩) main_call0_v2) maximumf,
    TRef.unary (TRef.of (T := ⟨S10000, .f32⟩) main_call0_v2) (TRef.of (T := ⟨S10000x1, .f32⟩) main_call0_v3) (broadcastInDim S10000x1 ![0] bcast_S10000_S10000x1_0),
    TRef.unary (TRef.of (T := ⟨S10000x1, .f32⟩) main_call0_v3) (TRef.of (T := ⟨S10000x64, .f32⟩) main_call0_v4) (broadcastInDim S10000x64 ![0, 1] bcast_S10000x1_S10000x64_0_1),
    TRef.binary (TRef.of (T := ⟨S10000x64, .f32⟩) main_v11) (TRef.of (T := ⟨S10000x64, .f32⟩) main_call0_v4) (TRef.of (T := ⟨S10000x64, .f32⟩) main_call0_v5) subf,
    TRef.unary (TRef.of (T := ⟨S10000x64, .f32⟩) main_call0_v5) (TRef.of (T := ⟨S10000x64, .f32⟩) main_call0_v6) Host.exp,
    TRef.nullary (TRef.of (T := ⟨S_, .f32⟩) main_call0_cst_1) (constant S_ .f32 0x00000000#32),
    TRef.binary (TRef.of (T := ⟨S10000x64, .f32⟩) main_call0_v6) (TRef.of (T := ⟨S_, .f32⟩) main_call0_cst_1) (TRef.of (T := ⟨S10000, .f32⟩) main_call0_v7) (fun x v => Host.reduceAdd x v reducesTo_S10000x64_S10000_d1 h_S_),
    TRef.unary (TRef.of (T := ⟨S10000, .f32⟩) main_call0_v7) (TRef.of (T := ⟨S10000x1, .f32⟩) main_call0_v8) (broadcastInDim S10000x1 ![0] bcast_S10000_S10000x1_0),
    TRef.unary (TRef.of (T := ⟨S10000x1, .f32⟩) main_call0_v8) (TRef.of (T := ⟨S10000x1, .f32⟩) main_call0_v9) Host.log,
    TRef.unary (TRef.of (T := ⟨S10000x1, .f32⟩) main_call0_v9) (TRef.of (T := ⟨S10000x64, .f32⟩) main_call0_v10) (broadcastInDim S10000x64 ![0, 1] bcast_S10000x1_S10000x64_0_1),
    TRef.binary (TRef.of (T := ⟨S10000x64, .f32⟩) main_call0_v5) (TRef.of (T := ⟨S10000x64, .f32⟩) main_call0_v10) (TRef.of (T := ⟨S10000x64, .f32⟩) main_v12) subf ]

/-- A line run after another is the two lines run in turn. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The row log-softmax as a function of the output layer. -/
def lsmOf (Z : (⟨S10000x64, .f32⟩ : BufTy).Contents (Elt F)) : (⟨S10000x64, .f32⟩ : BufTy).Contents (Elt F) :=
  subf (subf (Z) (broadcastInDim S10000x64 ![0, 1] bcast_S10000x1_S10000x64_0_1 (broadcastInDim S10000x1 ![0] bcast_S10000_S10000x1_0 (maximumf (broadcastInDim S10000 ![] bcast_S_S10000 (constant S_ .f32 0xFF800000#32)) (Host.reduce FloatOps.maximumf (Z) (constant S_ .f32 0xFF800000#32) reducesTo_S10000x64_S10000_d1 h_S_))))) (broadcastInDim S10000x64 ![0, 1] bcast_S10000x1_S10000x64_0_1 (Host.log (broadcastInDim S10000x1 ![0] bcast_S10000_S10000x1_0 (Host.reduceAdd (Host.exp (subf (Z) (broadcastInDim S10000x64 ![0, 1] bcast_S10000x1_S10000x64_0_1 (broadcastInDim S10000x1 ![0] bcast_S10000_S10000x1_0 (maximumf (broadcastInDim S10000 ![] bcast_S_S10000 (constant S_ .f32 0xFF800000#32)) (Host.reduce FloatOps.maximumf (Z) (constant S_ .f32 0xFF800000#32) reducesTo_S10000x64_S10000_d1 h_S_)))))) (constant S_ .f32 0x00000000#32) reducesTo_S10000x64_S10000_d1 h_S_))))

/-- Contents moved to a reference's own type and back are unchanged. -/
theorem ofBuf_toBuf_id {T : BufTy} (x : TRef sig T) (v : T.Contents (Elt F)) : x.ofBuf (x.toBuf v) = v := by
  obtain ⟨r, rfl, _, _⟩ := x
  rfl

/-- At the literal reference of the log-softmax's result the move to the reference's type is the identity. -/
theorem toBuf_main_v12 (p1 p2 p3) (v : (⟨S10000x64, .f32⟩ : BufTy).Contents (Elt F)) :
    (TRef.of (sig := sig) (T := ⟨S10000x64, .f32⟩) main_v12 p1 p2 p3).toBuf v = v := rfl

/-- At the literal reference of the output layer the move from the reference's type is the identity. -/
theorem ofBuf_main_v11 (p1 p2 p3) (v : (⟨S10000x64, .f32⟩ : BufTy).Contents (Elt F)) :
    (TRef.of (sig := sig) (T := ⟨S10000x64, .f32⟩) main_v11 p1 p2 p3).ofBuf v = v := rfl

/-- What the log-softmax's operations leave at their result, from any contents: `lsmOf` of the output layer's buffer. -/
theorem tail_read (V : Valuation τ sig (Elt F)) :
    after (opsTail (F := F)) V (Proc.devRef .tc main_v12) = lsmOf (F := F) (V (Proc.devRef .tc main_v11)) := by
  after_results
  simp only [ofBuf_toBuf_id, toBuf_main_v12, ofBuf_main_v11]
  rfl

/-- The output layer's composed term of the arguments. -/
def zOf (m : (ℓ : Loc nD τ sig) → Buf (Elt F) ℓ) (c : Dev nD) : (⟨S10000x64, .f32⟩ : BufTy).Contents (Elt F) :=
  addf (Host.dotGeneral dot_S10000x10000_S10000x64_S10000x64_1_0_0_1_n_n none (m ((c.tc : Thread nD τ).loc main_arg1)) (Host.dotGeneral dot_S10000x128_S128x64_S10000x64_1_0_0_1_n_n none (maximumf (addf (Host.dotGeneral dot_S10000x10000_S10000x128_S10000x128_1_0_0_1_n_n none (m ((c.tc : Thread nD τ).loc main_arg1)) (Host.dotGeneral dot_S10000x128_S128x128_S10000x128_1_0_0_1_n_n none (m ((c.tc : Thread nD τ).loc main_arg0)) (m ((c.tc : Thread nD τ).loc main_arg2)))) (broadcastInDim S10000x128 ![0, 1] bcast_S1x128_S10000x128_0_1 (broadcastInDim S1x128 ![1] bcast_S128_S1x128_1 (m ((c.tc : Thread nD τ).loc main_arg3))))) (broadcastInDim S10000x128 ![] bcast_S_S10000x128 (constant S_ .f32 0x00000000#32))) (m ((c.tc : Thread nD τ).loc main_arg4)))) (broadcastInDim S10000x64 ![0, 1] bcast_S1x64_S10000x64_0_1 (broadcastInDim S1x64 ![1] bcast_S64_S1x64_1 (m ((c.tc : Thread nD τ).loc main_arg5))))

set_option maxHeartbeats 2000000 in
/-- After the whole line the log-softmax result's buffer holds `lsmOf` of the output layer's term. -/
theorem read_back (m : (ℓ : Loc nD τ sig) → Buf (Elt F) ℓ) (c : Dev nD) :
    after (opsPre (F := F) ++ opsTail) (launchContents m c) (Proc.devRef .tc main_v12) = lsmOf (F := F) (zOf m c) := by
  have h11 : after (opsPre (F := F)) (launchContents m c) (Proc.devRef .tc main_v11) = zOf m c := by
    unfold zOf
    after_results <;> rfl
  rw [after_append', tail_read, h11]

end Cert.ReferenceIdeal.ReadBack

end
-- ==== Proof.RefValue.lean ====
/-
  The three values the reference computes, read at an index, over the extended reals.

  Each stage of the reference is read at an index from the stage before it: a matrix product is the sum of the products
  over the shared coordinate, a bias laid down the rows is read at its column, and the row log-softmax — whose row
  maximum is a reduction by `max` followed by one more `max` against the value it starts from — is `Cert.Spec.LS` of
  the row.  The results are the functions `hH`, `hZ` and `LS ∘ hZ` of `Cert.Spec` over the argument arrays.
-/
import proofs.«179412_g78735340470967_cont_sun_c4_260_3_alg».proof.Proof.RefRead
import proofs.«179412_g78735340470967_cont_sun_c4_260_3_alg».proof.Proof.Spec
import proofs.«179412_g78735340470967_cont_sun_c4_260_3_alg».proof.Proof.LibRowFolds
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic
  Idealize.ShloMosaic.ValueIdx Idealize.ShloMosaic.StableHlo

/-! ## Indices by their coordinates -/

/-- A rank-2 index with coordinates `a` and `b` is `ix2 a b`. -/
theorem idx2_eq {n0 n1 : ℕ} (u : (⟨2, ![n0, n1]⟩ : Shape).Idx) (a : Fin n0) (b : Fin n1) (h0 : u 0 = a) (h1 : u 1 = b) :
    u = ix2 a b := by
  subst h0 h1
  exact eq_ix2 u

/-- A rank-1 index with coordinate `a` is `ix1 a`. -/
theorem idx1_eq {n : ℕ} (u : (⟨1, ![n]⟩ : Shape).Idx) (a : Fin n) (h0 : u 0 = a) : u = ix1 a := by
  subst h0
  exact eq_ix1 u

/-! ## The row maximum as the reference takes it -/

/-- The host's reduction of a row by `max` from the value of the word `0xFF800000`, with one more `max` against that
    value: the row's maximum. -/
theorem hostRowMax_apply (Z : FVec Ideal S10000x64 .f32) (h' : S10000x64.ReducesTo [1] S10000) (hu : 0 < S_.numel)
    (r : Fin 10000) :
    max (Ideal.ofBits .f32 0xFF800000#32)
        (Host.reduce FloatOps.maximumf Z (constant (F := Ideal) S_ .f32 0xFF800000#32) h' hu (ix1 r))
      = Cert.Spec.rowMax (fun k => Z (ix2 r k)) := by
  rw [Cert.RowFolds.hostFold_apply FloatOps.maximumf Z _ h' (by decide) hu r]
  exact Cert.Spec.max_init_rowMax _

/-! ## The stages -/

variable (x : (⟨S10000x128, .f32⟩ : BufTy).Contents (Elt Ideal)) (adj : (⟨S10000x10000, .f32⟩ : BufTy).Contents (Elt Ideal))
  (W1 : (⟨S128x128, .f32⟩ : BufTy).Contents (Elt Ideal)) (b1 : (⟨S128, .f32⟩ : BufTy).Contents (Elt Ideal))
  (W2 : (⟨S128x64, .f32⟩ : BufTy).Contents (Elt Ideal)) (b2 : (⟨S64, .f32⟩ : BufTy).Contents (Elt Ideal))

/-- The first support `x · W1` at `(k, j)`. -/
theorem ref_s (k : Fin 10000) (j : Fin 128) : val_main_v0 (F := Ideal) x W1 (ix2 k j) = Cert.Spec.hS x W1 k j := by
  rw [val_main_v0_apply]
  unfold Cert.Spec.hS
  refine Finset.sum_congr rfl fun l _ => ?_
  rw [idx2_eq (lidx_main_v0 (ix2 k j) l) k l rfl rfl, idx2_eq (ridx_main_v0 (ix2 k j) l) l j rfl rfl]

/-- The hidden layer at `(r, j)`. -/
theorem ref_h (r : Fin 10000) (j : Fin 128) :
    val_main_v6 (F := Ideal) x adj W1 b1 (ix2 r j) = Cert.Spec.hH x adj W1 b1 r j := by
  rw [val_main_v6_apply, val_main_v4_apply, val_main_v5_apply, val_main_cst_apply, val_main_v1_apply,
    val_main_v3_apply, val_main_v2_apply]
  unfold Cert.Spec.hH
  rw [Ideal.maximumf_def, Ideal.addf_def, Ideal.ofBits_def, Ideal.ofBits_zero_f32,
    idx1_eq (idx_main_v2 (idx_main_v3 (ix2 r j))) j rfl]
  refine congrArg (fun t => max (t + b1 (ix1 j)) 0) (Finset.sum_congr rfl fun k _ => ?_)
  rw [idx2_eq (lidx_main_v1 (ix2 r j) k) r k rfl rfl, idx2_eq (ridx_main_v1 (ix2 r j) k) k j rfl rfl, ref_s]

/-- The second support `H · W2` at `(r, j)`. -/
theorem ref_p (r : Fin 10000) (j : Fin 64) :
    val_main_v7 (F := Ideal) x adj W1 b1 W2 (ix2 r j) = Cert.Spec.hP x adj W1 b1 W2 r j := by
  rw [val_main_v7_apply]
  unfold Cert.Spec.hP
  refine Finset.sum_congr rfl fun k _ => ?_
  rw [idx2_eq (lidx_main_v7 (ix2 r j) k) r k rfl rfl, idx2_eq (ridx_main_v7 (ix2 r j) k) k j rfl rfl, ref_h]

/-- The output layer at `(r, j)`. -/
theorem ref_z (r : Fin 10000) (j : Fin 64) :
    val_main_v11 (F := Ideal) x adj W1 b1 W2 b2 (ix2 r j) = Cert.Spec.hZ x adj W1 b1 W2 b2 r j := by
  rw [val_main_v11_apply, val_main_v8_apply, val_main_v10_apply, val_main_v9_apply]
  unfold Cert.Spec.hZ
  rw [Ideal.addf_def, idx1_eq (idx_main_v9 (idx_main_v10 (ix2 r j))) j rfl]
  refine congrArg (fun t => t + b2 (ix1 j)) (Finset.sum_congr rfl fun k _ => ?_)
  rw [idx2_eq (lidx_main_v8 (ix2 r j) k) r k rfl rfl, idx2_eq (ridx_main_v8 (ix2 r j) k) k j rfl rfl, ref_p]

/-! ## The row log-softmax of the output layer -/

/-- The row maxima laid along the columns, at `(r, c)`: the maximum of row `r` of the output layer. -/
theorem rmax_at (r : Fin 10000) (c : Fin 64) :
    val_main_call0_v4 (F := Ideal) x adj W1 b1 W2 b2 (ix2 r c)
      = Cert.Spec.rowMax (fun k => val_main_v11 (F := Ideal) x adj W1 b1 W2 b2 (ix2 r k)) := by
  rw [val_main_call0_v4_apply, val_main_call0_v3_apply, val_main_call0_v2_apply, val_main_call0_v1_apply,
    val_main_call0_cst_0_apply, idx1_eq (idx_main_call0_v3 (idx_main_call0_v4 (ix2 r c))) r rfl]
  exact hostRowMax_apply _ _ _ r

/-- The logarithms of the row sums laid along the columns, at `(r, c)`. -/
theorem lsum_at (r : Fin 10000) (c : Fin 64) :
    val_main_call0_v10 (F := Ideal) x adj W1 b1 W2 b2 (ix2 r c)
      = Ideal.log (∑ k : Fin 64, Ideal.exp (val_main_v11 (F := Ideal) x adj W1 b1 W2 b2 (ix2 r k)
          - Cert.Spec.rowMax (fun k' => val_main_v11 (F := Ideal) x adj W1 b1 W2 b2 (ix2 r k')))) := by
  rw [val_main_call0_v10_apply, val_main_call0_v9_apply, val_main_call0_v8_apply, val_main_call0_v7_apply,
    val_main_call0_cst_1_apply, Ideal.hostUnary_log_def, Ideal.ofBits_def, Ideal.ofBits_zero_f32, zero_add]
  refine congrArg Ideal.log (Finset.sum_congr rfl fun k _ => ?_)
  rw [val_main_call0_v6_apply, val_main_call0_v5_apply, Ideal.hostUnary_exp_def, Ideal.subf_def,
    idx2_eq (idx_main_call0_v7 (idx_main_call0_v8 (idx_main_call0_v10 (ix2 r c))) k) r k rfl rfl, rmax_at]

/-- The log-softmax at `(r, j)`, over the output layer's own value. -/
theorem ref_lz_z (r : Fin 10000) (j : Fin 64) :
    val_main_v12 (F := Ideal) x adj W1 b1 W2 b2 (ix2 r j)
      = Cert.Spec.LS (fun j' => val_main_v11 (F := Ideal) x adj W1 b1 W2 b2 (ix2 r j')) j := by
  rw [val_main_v12_apply, val_main_call0_v5_apply, Ideal.subf_def, Ideal.subf_def, rmax_at, lsum_at]
  rfl

/-- The log-softmax at `(r, j)`: `Cert.Spec.LS` of row `r` of `Cert.Spec.hZ`. -/
theorem ref_lz (r : Fin 10000) (j : Fin 64) :
    val_main_v12 (F := Ideal) x adj W1 b1 W2 b2 (ix2 r j)
      = Cert.Spec.LS (fun j' => Cert.Spec.hZ x adj W1 b1 W2 b2 r j') j :=
  (ref_lz_z x adj W1 b1 W2 b2 r j).trans
    (congrArg (fun z => Cert.Spec.LS z j) (funext fun j' => ref_z x adj W1 b1 W2 b2 r j'))

end Cert.ReferenceIdeal.RefValue

end
-- ==== Proof.lean ====
/-
  A two-layer graph convolution with a dense 10000 × 10000 adjacency matrix, as two pipelined passes over 25 row blocks of 400
  rows, against its plain reference:
      h = max(adj · (x · W1) + b1, 0),   z = adj · (h · W2) + b2,   results (log-softmax of z along its rows, h, z).
  The first pass computes x · W1 once, at its first grid point, into a scratch buffer it carries across the points, and at every
  point stores a block of h and the same block of h · W2; the second pass stores a block of z and of its row log-softmax. Over
  the extended reals both programs compute the SAME sums in the same nesting — every matrix product a plain sum over the
  contracted index, the row maximum a fold of max from -∞, the row sum a plain sum — so the two sides are one function of the
  six arrays, index by index, and no law of arithmetic beyond that is used: the precondition (finite inputs) is not needed for
  the values. Each program's frame is its run with the results dropped; the idealization rewrote nothing, so the preservation
  claim is trivial.
-/
import proofs.«179412_g78735340470967_cont_sun_c4_260_3_alg».proof.Defs
import proofs.«179412_g78735340470967_cont_sun_c4_260_3_alg».proof.Proof.Gen.Kernel
import proofs.«179412_g78735340470967_cont_sun_c4_260_3_alg».proof.Proof.Gen.KernelIdeal
import proofs.«179412_g78735340470967_cont_sun_c4_260_3_alg».proof.Proof.Gen.ReferenceIdeal
import proofs.«179412_g78735340470967_cont_sun_c4_260_3_alg».proof.Proof.Gen.Pre_finite_inputs
import proofs.«179412_g78735340470967_cont_sun_c4_260_3_alg».proof.Proof.WholeRunBits
import proofs.«179412_g78735340470967_cont_sun_c4_260_3_alg».proof.Proof.KernelValue
import proofs.«179412_g78735340470967_cont_sun_c4_260_3_alg».proof.Proof.RefRun
import proofs.«179412_g78735340470967_cont_sun_c4_260_3_alg».proof.Proof.RefRead
import proofs.«179412_g78735340470967_cont_sun_c4_260_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs to the end, faults nowhere and leaves its arguments as launched. -/
theorem frame_kernel [Cert.Kernel.Facts] [Cert.Pre_finite_inputs.Facts] : Cert.frame_Kernel :=
  fun m ρ _ => Cert.Kernel.WholeRun.frame (F := Bits) m ρ

/-- So does the idealized kernel. -/
theorem frame_kernel_ideal [Cert.KernelIdeal.Facts] [Cert.Pre_finite_inputs.Facts] : Cert.frame_KernelIdeal :=
  fun m ρ _ => Cert.KernelIdeal.WholeRun.frame (F := Ideal) m ρ

/-- And the reference: its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2) (Cert.ReferenceIdeal.ValueP.run (F := Ideal) m ρ)

/-- The idealization rewrote no operation. -/
theorem preserves : Cert.preserves_Kernel_KernelIdeal := trivial

/-- Over the extended reals, from memories that agree on the six arguments, both programs end with the same three arrays:
    the row log-softmax of z, h, and z, each the specification's function of the arguments — the kernel's by its two passes'
    blocks tiling the arrays, the reference's by reading its operations one at a time. -/
theorem algebraic [Cert.KernelIdeal.Facts] [Cert.ReferenceIdeal.Facts] [Cert.Pre_finite_inputs.Facts] : Cert.algebraic_KernelIdeal_ReferenceIdeal := by
  intro m ρ m' ρ' _ hagree
  refine ⟨_, _, _, Cert.KernelIdeal.KernelValue.run m ρ, ?_⟩
  refine (θ_run Cert.ReferenceIdeal.defs _ _).mono (fun _ h c => ⟨?_, ?_, ?_, (h c).2.2.2⟩)
    (Cert.ReferenceIdeal.ValueP.run (F := Ideal) m' ρ')
  · rw [(h c).1, Cert.ReferenceIdeal.ReadP.val_main_v12_eq m' c, (hagree c).1, (hagree c).2.1, (hagree c).2.2.1, (hagree c).2.2.2.1, (hagree c).2.2.2.2.1, (hagree c).2.2.2.2.2]
    funext i
    obtain ⟨r, j, rfl⟩ : ∃ (r : Fin 10000) (j : Fin 64), i = ix2 r j := ⟨i 0, i 1, eq_ix2 (n0 := 10000) (n1 := 64) i⟩
    exact Cert.ReferenceIdeal.RefValue.ref_lz _ _ _ _ _ _ r j
  · rw [(h c).2.1, (hagree c).1, (hagree c).2.1, (hagree c).2.2.1, (hagree c).2.2.2.1, Cert.ReferenceIdeal.ReadP.val_main_v6_eq]
    funext i
    obtain ⟨r, j, rfl⟩ : ∃ (r : Fin 10000) (j : Fin 128), i = ix2 r j := ⟨i 0, i 1, eq_ix2 (n0 := 10000) (n1 := 128) i⟩
    exact Cert.ReferenceIdeal.RefValue.ref_h _ _ _ _ r j
  · rw [(h c).2.2.1, (hagree c).1, (hagree c).2.1, (hagree c).2.2.1, (hagree c).2.2.2.1, (hagree c).2.2.2.2.1, (hagree c).2.2.2.2.2, Cert.ReferenceIdeal.ReadP.val_main_v11_eq]
    funext i
    obtain ⟨r, j, rfl⟩ : ∃ (r : Fin 10000) (j : Fin 64), i = ix2 r j := ⟨i 0, i 1, eq_ix2 (n0 := 10000) (n1 := 64) i⟩
    exact Cert.ReferenceIdeal.RefValue.ref_z _ _ _ _ _ _ r j

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
